-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S1600000 : Shape := ⟨1, ![1600000]⟩
abbrev S5x64 : Shape := ⟨2, ![5, 64]⟩
abbrev S64 : Shape := ⟨1, ![64]⟩
abbrev S3x64 : Shape := ⟨2, ![3, 64]⟩
abbrev S128x128 : Shape := ⟨2, ![128, 128]⟩
abbrev S128 : Shape := ⟨1, ![128]⟩
abbrev S2x128x128 : Shape := ⟨3, ![2, 128, 128]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S3x64 : S_.BroadcastsInDim S3x64 (![] : Fin 0 → Fin S3x64.rank)
  reducesTo_S3x64_S_d0_1 : S3x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_

variable [Facts]

def fn_part4 {F : FTy → Type} [FloatOps F] (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg13 : FVec F S2x128x128 .f32) (main_arg14 : FVec F S128x128 .f32) (main_arg15 : FVec F S128 .f32) (main_arg16 : FVec F S128x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S2x128x128 .f32 := Host.absf main_arg13
  let main_cst_20 : FVec F S_ .f32 := constant S_ .f32 0x7F800000#32
  let main_v55 : FVec F S2x128x128 .f32 := broadcastInDim S2x128x128 ![] bcast_S_S2x128x128 main_cst_20
  let main_v56 : IVec S2x128x128 1 := cmpf .olt main_v54 main_v55
  let main_c_21 : IVec S_ 1 := constantI S_ 1 1#1
  let main_v57 : IVec S_ 1 := (fun x v => Host.reduce IntOp.andi x v reducesTo_S2x128x128_S_d0_1_2 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S2x128x128 .f32) (main_arg11 : FVec F S128x128 .f32) (main_arg12 : FVec F S128 .f32) (main_arg13 : FVec F S2x128x128 .f32) (main_arg14 : FVec F S128x128 .f32) (main_arg15 : FVec F S128 .f32) (main_arg16 : FVec F S128x128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2x128x128 .f32 := Host.absf main_arg10
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_v48 main_v49 main_v50

def fn_part1 {F : FTy → Type} [FloatOps F] (main_arg6 : FVec F S64 .f32) (main_arg7 : FVec F S128x128 .f32) (main_arg8 : FVec F S128 .f32) (main_arg9 : FVec F S128 .f32) (main_arg10 : FVec F S2x128x128 .f32) (main_arg11 : FVec F S128x128 .f32) (main_arg12 : FVec F S128 .f32) (main_arg13 : FVec F S2x128x128 .f32) (main_arg14 : FVec F S128x128 .f32) (main_arg15 : FVec F S128 .f32) (main_arg16 : FVec F S128x128 .f32) (main_arg17 : FVec F S128 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x8 .f32) (main_arg1 : IVec S2x1600000 32) (main_arg2 : IVec S1600000 32) (main_arg3 : FVec F S5x64 .f32) (main_arg4 : FVec F S64 .f32) (main_arg5 : FVec F S3x64 .f32) (main_arg6 : FVec F S64 .f32) (main_arg7 : FVec F S128x128 .f32) (main_arg8 : FVec F S128 .f32) (main_arg9 : FVec F S128 .f32) (main_arg10 : FVec F S2x128x128 .f32) (main_arg11 : FVec F S128x128 .f32) (main_arg12 : FVec F S128 .f32) (main_arg13 : FVec F S2x128x128 .f32) (main_arg14 : FVec F S128x128 .f32) (main_arg15 : FVec F S128 .f32) (main_arg16 : FVec F S128x128 .f32) (main_arg17 : FVec F S128 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S5x64 .f32 := Host.absf main_arg3
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x8 : Shape := ⟨2, ![100000, 8]⟩
abbrev S2x1600000 : Shape := ⟨2, ![2, 1600000]⟩
abbrev S1600000 : Shape := ⟨1, ![1600000]⟩
abbrev S5x64 : Shape := ⟨2, ![5, 64]⟩
abbrev S64 : Shape := ⟨1, ![64]⟩
abbrev S3x64 : Shape := ⟨2, ![3, 64]⟩
abbrev S128x128 : Shape := ⟨2, ![128, 128]⟩
abbrev S128 : Shape := ⟨1, ![128]⟩
abbrev S2x128x128 : Shape := ⟨3, ![2, 128, 128]⟩
abbrev S1x1600000 : Shape := ⟨2, ![1, 1600000]⟩
abbrev S1x64 : Shape := ⟨2, ![1, 64]⟩
abbrev S1x128 : Shape := ⟨2, ![1, 128]⟩
abbrev S64x128 : Shape := ⟨2, ![64, 128]⟩
abbrev S100000x128 : Shape := ⟨2, ![100000, 128]⟩
abbrev S2000x8 : Shape := ⟨2, ![2000, 8]⟩
abbrev S2000x128 : Shape := ⟨2, ![2000, 128]⟩
abbrev S2000x5 : Shape := ⟨2, ![2000, 5]⟩
abbrev S2000x3 : Shape := ⟨2, ![2000, 3]⟩
abbrev S2000x64 : Shape := ⟨2, ![2000, 64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128x128 : Shape := ⟨3, ![1, 128, 128]⟩

abbrev nBuf : Space → Nat
  | .hbm => 148
  | .vmem => 38
  | .smem => 0
  | _ => 0

abbrev hbmTy0_0 (i : Nat) : BufTy := match i % 128 with
  | 0 => ⟨S100000x8, .f32⟩
  | 1 => ⟨S2x1600000, .i32⟩
  | 2 => ⟨S1600000, .i32⟩
  | 3 => ⟨S5x64, .f32⟩
  | 4 => ⟨S64, .f32⟩
  | 5 => ⟨S3x64, .f32⟩
  | 6 => ⟨S64, .f32⟩
  | 7 => ⟨S128x128, .f32⟩
  | 8 => ⟨S128, .f32⟩
  | 9 => ⟨S128, .f32⟩
  | 10 => ⟨S2x128x128, .f32⟩
  | 11 => ⟨S128x128, .f32⟩
  | 12 => ⟨S128, .f32⟩
  | 13 => ⟨S2x128x128, .f32⟩
  | 14 => ⟨S128x128, .f32⟩
  | 15 => ⟨S128, .f32⟩
  | 16 => ⟨S128x128, .f32⟩
  | 17 => ⟨S128, .f32⟩
  | 18 => ⟨S1x1600000, .i32⟩
  | 19 => ⟨S1600000, .i32⟩
  | 20 => ⟨S1x1600000, .i32⟩
  | 21 => ⟨S1600000, .i32⟩
  | 22 => ⟨S1x64, .f32⟩
  | 23 => ⟨S1x64, .f32⟩
  | 24 => ⟨S1x128, .f32⟩
  | 25 => ⟨S1x128, .f32⟩
  | 26 => ⟨S64x128, .f32⟩
  | 27 => ⟨S64x128, .f32⟩
  | 28 => ⟨S100000x128, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .i32⟩
  | 39 => ⟨S1600000, .i32⟩
  | 40 => ⟨S1600000, .i1⟩
  | 41 => ⟨S1600000, .f32⟩
  | 42 => ⟨S1600000x1, .f32⟩
  | 43 => ⟨S1600000x128, .f32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S_, .f32⟩
  | 50 => ⟨S100000, .f32⟩
  | 51 => ⟨S1600000x1, .i32⟩
  | 52 => ⟨S100000, .f32⟩
  | 53 => ⟨S_, .f32⟩
  | 54 => ⟨S_, .f32⟩
  | 55 => ⟨S100000, .f32⟩
  | 56 => ⟨S100000, .f32⟩
  | 57 => ⟨S100000x1, .f32⟩
  | 58 => ⟨S100000x128, .f32⟩
  | 59 => ⟨S100000x128, .f32⟩
  | 60 => ⟨S_, .i32⟩
  | 61 => ⟨S1600000, .i32⟩
  | 62 => ⟨S1600000, .i1⟩
  | 63 => ⟨S1600000, .f32⟩
  | 64 => ⟨S1600000x1, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S_, .f32⟩
  | 72 => ⟨S100000, .f32⟩
  | 73 => ⟨S1600000x1, .i32⟩
  | 74 => ⟨S100000, .f32⟩
  | 75 => ⟨S_, .f32⟩
  | 76 => ⟨S_, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S1x128x128, .f32⟩
  | 83 => ⟨S128x128, .f32⟩
  | 84 => ⟨S1x128x128, .f32⟩
  | 85 => ⟨S128x128, .f32⟩
  | 86 => ⟨S1x128, .f32⟩
  | 87 => ⟨S100000x128, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S_, .i32⟩
  | 98 => ⟨S1600000, .i32⟩
  | 99 => ⟨S1600000, .i1⟩
  | 100 => ⟨S1600000, .f32⟩
  | 101 => ⟨S1600000x1, .f32⟩
  | 102 => ⟨S1600000x128, .f32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S_, .f32⟩
  | 109 => ⟨S100000, .f32⟩
  | 110 => ⟨S1600000x1, .i32⟩
  | 111 => ⟨S100000, .f32⟩
  | 112 => ⟨S_, .f32⟩
  | 113 => ⟨S_, .f32⟩
  | 114 => ⟨S100000, .f32⟩
  | 115 => ⟨S100000, .f32⟩
  | 116 => ⟨S100000x1, .f32⟩
  | 117 => ⟨S100000x128, .f32⟩
  | 118 => ⟨S100000x128, .f32⟩
  | 119 => ⟨S_, .i32⟩
  | 120 => ⟨S1600000, .i32⟩
  | 121 => ⟨S1600000, .i1⟩
  | 122 => ⟨S1600000, .f32⟩
  | 123 => ⟨S1600000x1, .f32⟩
  | 124 => ⟨S1600000x128, .f32⟩
  | 125 => ⟨S1600000x128, .f32⟩
  | 126 => ⟨S_, .f32⟩
  | 127 => ⟨S100000x128, .f32⟩
  | _ => ⟨S100000x8, .f32⟩

abbrev hbmTy0_1 (i : Nat) : BufTy := match i % 128 with
  | 0 => ⟨S1600000x1, .i32⟩
  | 1 => ⟨S100000x128, .f32⟩
  | 2 => ⟨S_, .f32⟩
  | 3 => ⟨S100000, .f32⟩
  | 4 => ⟨S1600000x1, .i32⟩
  | 5 => ⟨S100000, .f32⟩
  | 6 => ⟨S_, .f32⟩
  | 7 => ⟨S_, .f32⟩
  | 8 => ⟨S100000, .f32⟩
  | 9 => ⟨S100000, .f32⟩
  | 10 => ⟨S100000x1, .f32⟩
  | 11 => ⟨S100000x128, .f32⟩
  | 12 => ⟨S100000x128, .f32⟩
  | 13 => ⟨S1x128x128, .f32⟩
  | 14 => ⟨S128x128, .f32⟩
  | 15 => ⟨S1x128x128, .f32⟩
  | 16 => ⟨S128x128, .f32⟩
  | 17 => ⟨S1x128, .f32⟩
  | 18 => ⟨S1x128, .f32⟩
  | 19 => ⟨S100000x128, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | .local _ .vmem, ⟨0, _⟩ => ⟨S2000x8, .f32⟩
  | .local _ .vmem, ⟨1, _⟩ => ⟨S2000x8, .f32⟩
  | .local _ .vmem, ⟨2, _⟩ => ⟨S5x64, .f32⟩
  | .local _ .vmem, ⟨3, _⟩ => ⟨S1x64, .f32⟩
  | .local _ .vmem, ⟨4, _⟩ => ⟨S3x64, .f32⟩
  | .local _ .vmem, ⟨5, _⟩ => ⟨S1x64, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_call0_v0 : Ref sig .tc := ⟨.hbm, 54, rfl⟩
abbrev main_call0_v1 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_call1_v0 : Ref sig .tc := ⟨.hbm, 76, rfl⟩
abbrev main_call1_v1 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_8 : Ref sig .tc := ⟨.hbm, 88, rfl⟩
abbrev main_v56 : Ref sig .tc := ⟨.hbm, 89, rfl⟩
abbrev main_v57 : Ref sig .tc := ⟨.hbm, 90, rfl⟩
abbrev main_c_9 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_10 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_11 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_12 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_13 : Ref sig .tc := ⟨.hbm, 112, rfl⟩
abbrev main_call2_v0 : Ref sig .tc := ⟨.hbm, 113, rfl⟩
abbrev main_call2_v1 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_14 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_15 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_16 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_17 : Ref sig .tc := ⟨.hbm, 134, rfl⟩
abbrev main_call3_v0 : Ref sig .tc := ⟨.hbm, 135, rfl⟩
abbrev main_call3_v1 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg9_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem9_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  shapeCasts_S128_S1x128 : S128.ShapeCasts S1x128
  slices_S128x128_S64x128_0_0 : S128x128.Slices ![0, 0] S64x128
  slices_S128x128_S64x128_64_0 : S128x128.Slices ![64, 0] S64x128
  inb_S2000x8_S2000x8_0_0 : ∀ a, (![0, 0] : Fin 2 → Nat) a + S2000x8.size a ≤ S2000x8.size a
  h_S2000x8 : 0 < S2000x8.numel
  slices_S2000x8_o0_0_S2000x5 : S2000x8.Slices ![0, 0] S2000x5
  slices_S2000x8_o0_5_S2000x3 : S2000x8.Slices ![0, 5] S2000x3
  inb_S5x64_S5x64_0_0 : ∀ a, (![0, 0] : Fin 2 → Nat) a + S5x64.size a ≤ S5x64.size a
  h_S5x64 : 0 < S5x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S3x64_S3x64_0_0 : ∀ a, (![0, 0] : Fin 2 → Nat) a + S3x64.size a ≤ S3x64.size a
  h_S3x64 : 0 < S3x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S2000x5_S5x64_S2000x64_1_0_0_1_n_n_wf : DotDims.WF S2000x5 S5x64 S2000x64 [1] [0] [0] [1] [] []
  dot_S2000x3_S3x64_S2000x64_1_0_0_1_n_n_wf : DotDims.WF S2000x3 S3x64 S2000x64 [1] [0] [0] [1] [] []
  dot_S2000x64_S64x128_S2000x128_1_0_0_1_n_n_wf : DotDims.WF S2000x64 S64x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S100000x8.size a
  hwx0_0 : ∀ i : grid0.Coords, EltTy.bits .f32 = 32 ∨ (Rect.block (s := S100000x8) S2000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S100000x128.size a
  hwx2_9 : ∀ i : grid2.Coords, EltTy.bits .f32 = 32 ∨ (Rect.block (s := S100000x128) S2000x128.size (cc2_transform_9 i) (hinb2_9 i)).WholeWords (EltTy.packing .f32)

variable [Facts₀]

def dot_S2000x5_S5x64_S2000x64_1_0_0_1_n_n : DotDims S2000x5 S5x64 S2000x64 where
  lhsContracting := [1]
  rhsContracting := [0]
  lhsNonContracting := [0]
  rhsNonContracting := [1]
  lhsBatch := []
  rhsBatch := []
  wf := dot_S2000x5_S5x64_S2000x64_1_0_0_1_n_n_wf
def dot_S2000x3_S3x64_S2000x64_1_0_0_1_n_n : DotDims S2000x3 S3x64 S2000x64 where
  lhsContracting := [1]
  rhsContracting := [0]
  lhsNonContracting := [0]
  rhsNonContracting := [1]
  lhsBatch := []
  rhsBatch := []
  wf := dot_S2000x3_S3x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v10) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v55) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v55) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v94) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v96) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v98) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v99) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg16) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v100) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v101) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x8 : Shape := ⟨2, ![100000, 8]⟩
abbrev S2x1600000 : Shape := ⟨2, ![2, 1600000]⟩
abbrev S1600000 : Shape := ⟨1, ![1600000]⟩
abbrev S5x64 : Shape := ⟨2, ![5, 64]⟩
abbrev S64 : Shape := ⟨1, ![64]⟩
abbrev S3x64 : Shape := ⟨2, ![3, 64]⟩
abbrev S128x128 : Shape := ⟨2, ![128, 128]⟩
abbrev S128 : Shape := ⟨1, ![128]⟩
abbrev S2x128x128 : Shape := ⟨3, ![2, 128, 128]⟩
abbrev S100000x5 : Shape := ⟨2, ![100000, 5]⟩
abbrev S100000x3 : Shape := ⟨2, ![100000, 3]⟩
abbrev S100000x64 : Shape := ⟨2, ![100000, 64]⟩
abbrev S1x64 : Shape := ⟨2, ![1, 64]⟩
abbrev S_ : Shape := ⟨0, ![]⟩
abbrev S100000x128 : Shape := ⟨2, ![100000, 128]⟩
abbrev S1x128 : Shape := ⟨2, ![1, 128]⟩
abbrev S1x1600000 : Shape := ⟨2, ![1, 1600000]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128x128 : Shape := ⟨3, ![1, 128, 128]⟩

abbrev nBuf : Space → Nat
  | .hbm => 196
  | .vmem => 0
  | .smem => 0
  | _ => 0

abbrev hbmTy0_0 (i : Nat) : BufTy := match i % 128 with
  | 0 => ⟨S100000x8, .f32⟩
  | 1 => ⟨S2x1600000, .i32⟩
  | 2 => ⟨S1600000, .i32⟩
  | 3 => ⟨S5x64, .f32⟩
  | 4 => ⟨S64, .f32⟩
  | 5 => ⟨S3x64, .f32⟩
  | 6 => ⟨S64, .f32⟩
  | 7 => ⟨S128x128, .f32⟩
  | 8 => ⟨S128, .f32⟩
  | 9 => ⟨S128, .f32⟩
  | 10 => ⟨S2x128x128, .f32⟩
  | 11 => ⟨S128x128, .f32⟩
  | 12 => ⟨S128, .f32⟩
  | 13 => ⟨S2x128x128, .f32⟩
  | 14 => ⟨S128x128, .f32⟩
  | 15 => ⟨S128, .f32⟩
  | 16 => ⟨S128x128, .f32⟩
  | 17 => ⟨S128, .f32⟩
  | 18 => ⟨S100000x5, .f32⟩
  | 19 => ⟨S100000x3, .f32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S100000x64, .f32⟩
  | 26 => ⟨S100000x64, .i1⟩
  | 27 => ⟨S_, .f32⟩
  | 28 => ⟨S100000x64, .f32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .i1⟩
  | 38 => ⟨S_, .f32⟩
  | 39 => ⟨S100000x64, .f32⟩
  | 40 => ⟨S100000x64, .f32⟩
  | 41 => ⟨S100000x64, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .i1⟩
  | 50 => ⟨S1x128, .f32⟩
  | 51 => ⟨S100000x128, .f32⟩
  | 52 => ⟨S100000x128, .f32⟩
  | 53 => ⟨S100000x128, .f32⟩
  | 54 => ⟨S1x1600000, .i32⟩
  | 55 => ⟨S1600000, .i32⟩
  | 56 => ⟨S1x1600000, .i32⟩
  | 57 => ⟨S1600000, .i32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S100000x128, .f32⟩
  | 68 => ⟨S1x128, .f32⟩
  | 69 => ⟨S100000x128, .f32⟩
  | 70 => ⟨S100000x128, .f32⟩
  | 71 => ⟨S_, .i32⟩
  | 72 => ⟨S1600000, .i32⟩
  | 73 => ⟨S1600000, .i1⟩
  | 74 => ⟨S1600000, .f32⟩
  | 75 => ⟨S1600000x1, .f32⟩
  | 76 => ⟨S1600000x128, .f32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S_, .f32⟩
  | 83 => ⟨S100000, .f32⟩
  | 84 => ⟨S1600000x1, .i32⟩
  | 85 => ⟨S100000, .f32⟩
  | 86 => ⟨S_, .f32⟩
  | 87 => ⟨S_, .f32⟩
  | 88 => ⟨S100000, .f32⟩
  | 89 => ⟨S100000, .f32⟩
  | 90 => ⟨S100000x1, .f32⟩
  | 91 => ⟨S100000x128, .f32⟩
  | 92 => ⟨S100000x128, .f32⟩
  | 93 => ⟨S1x128x128, .f32⟩
  | 94 => ⟨S128x128, .f32⟩
  | 95 => ⟨S100000x128, .f32⟩
  | 96 => ⟨S100000x128, .f32⟩
  | 97 => ⟨S_, .i32⟩
  | 98 => ⟨S1600000, .i32⟩
  | 99 => ⟨S1600000, .i1⟩
  | 100 => ⟨S1600000, .f32⟩
  | 101 => ⟨S1600000x1, .f32⟩
  | 102 => ⟨S1600000x128, .f32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S_, .f32⟩
  | 109 => ⟨S100000, .f32⟩
  | 110 => ⟨S1600000x1, .i32⟩
  | 111 => ⟨S100000, .f32⟩
  | 112 => ⟨S_, .f32⟩
  | 113 => ⟨S_, .f32⟩
  | 114 => ⟨S100000, .f32⟩
  | 115 => ⟨S100000, .f32⟩
  | 116 => ⟨S100000x1, .f32⟩
  | 117 => ⟨S100000x128, .f32⟩
  | 118 => ⟨S100000x128, .f32⟩
  | 119 => ⟨S1x128x128, .f32⟩
  | 120 => ⟨S128x128, .f32⟩
  | 121 => ⟨S100000x128, .f32⟩
  | 122 => ⟨S100000x128, .f32⟩
  | 123 => ⟨S1x1600000, .i32⟩
  | 124 => ⟨S1600000, .i32⟩
  | 125 => ⟨S1x1600000, .i32⟩
  | 126 => ⟨S1600000, .i32⟩
  | 127 => ⟨S_, .i32⟩
  | _ => ⟨S100000x8, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x128, .f32⟩
  | 8 => ⟨S100000x128, .f32⟩
  | 9 => ⟨S1x128, .f32⟩
  | 10 => ⟨S100000x128, .f32⟩
  | 11 => ⟨S100000x128, .f32⟩
  | 12 => ⟨S_, .i32⟩
  | 13 => ⟨S1600000, .i32⟩
  | 14 => ⟨S1600000, .i1⟩
  | 15 => ⟨S1600000, .f32⟩
  | 16 => ⟨S1600000x1, .f32⟩
  | 17 => ⟨S1600000x128, .f32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S100000x1, .f32⟩
  | 32 => ⟨S100000x128, .f32⟩
  | 33 => ⟨S100000x128, .f32⟩
  | 34 => ⟨S1x128x128, .f32⟩
  | 35 => ⟨S128x128, .f32⟩
  | 36 => ⟨S100000x128, .f32⟩
  | 37 => ⟨S100000x128, .f32⟩
  | 38 => ⟨S_, .i32⟩
  | 39 => ⟨S1600000, .i32⟩
  | 40 => ⟨S1600000, .i1⟩
  | 41 => ⟨S1600000, .f32⟩
  | 42 => ⟨S1600000x1, .f32⟩
  | 43 => ⟨S1600000x128, .f32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S_, .f32⟩
  | 50 => ⟨S100000, .f32⟩
  | 51 => ⟨S1600000x1, .i32⟩
  | 52 => ⟨S100000, .f32⟩
  | 53 => ⟨S_, .f32⟩
  | 54 => ⟨S_, .f32⟩
  | 55 => ⟨S100000, .f32⟩
  | 56 => ⟨S100000, .f32⟩
  | 57 => ⟨S100000x1, .f32⟩
  | 58 => ⟨S100000x128, .f32⟩
  | 59 => ⟨S100000x128, .f32⟩
  | 60 => ⟨S1x128x128, .f32⟩
  | 61 => ⟨S128x128, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c : Ref sig .tc := ⟨.hbm, 58, rfl⟩
abbrev main_v35 : Ref sig .tc := ⟨.hbm, 59, rfl⟩
abbrev main_v36 : Ref sig .tc := ⟨.hbm, 60, rfl⟩
abbrev main_c_4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_5 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_call3_v0 : Ref sig .tc := ⟨.hbm, 87, rfl⟩
abbrev main_call3_v1 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_9 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_10 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_11 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_12 : Ref sig .tc := ⟨.hbm, 112, rfl⟩
abbrev main_call4_v0 : Ref sig .tc := ⟨.hbm, 113, rfl⟩
abbrev main_call4_v1 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_13 : Ref sig .tc := ⟨.hbm, 127, rfl⟩
abbrev main_v90 : Ref sig .tc := ⟨.hbm, 128, rfl⟩
abbrev main_v91 : Ref sig .tc := ⟨.hbm, 129, rfl⟩
abbrev main_c_14 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_c_15 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_16 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_17 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_18 : Ref sig .tc := ⟨.hbm, 155, rfl⟩
abbrev main_call5_v0 : Ref sig .tc := ⟨.hbm, 156, rfl⟩
abbrev main_call5_v1 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_c_19 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_20 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_21 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_22 : Ref sig .tc := ⟨.hbm, 181, rfl⟩
abbrev main_call6_v0 : Ref sig .tc := ⟨.hbm, 182, rfl⟩
abbrev main_call6_v1 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩

abbrev nD : Nat := 1
abbrev τ : Topo := Topo.v7x

variable {F : FTy → Type} [FloatOps F]

class Facts₀ : Prop where
  slices_S100000x8_S100000x5_0_0 : S100000x8.Slices ![0, 0] S100000x5
  slices_S100000x8_S100000x3_0_5 : S100000x8.Slices ![0, 5] S100000x3
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  dot_S100000x5_S5x64_S100000x64_1_0_0_1_n_n_wf : DotDims.WF S100000x5 S5x64 S100000x64 [1] [0] [0] [1] [] []
  dot_S100000x3_S3x64_S100000x64_1_0_0_1_n_n_wf : DotDims.WF S100000x3 S3x64 S100000x64 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.KernelRun.lean ====
/-
  The idealized kernel's run with its result named.

  The program is three kernel regions among stretches of host operations. Its run from any launch memory ends, and
  the final memory holds, at every buffer no region keeps to itself, what folding the program's segments over the
  launch memory gives: a host stretch applies its operations in order; a region leaves each of its output arrays at
  what its grid points' write-backs assemble, and everything else as it found it. Reading that final memory at the
  result buffer and at the eighteen argument buffers gives the statement below: the result is the fold's value
  there, the arguments are as launched.
-/
import proofs.«150732_j39487929319593_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel from `m` terminates without a fault; the result buffer ends
    at the fold's value `W14 m ρ c` there, and every argument buffer ends as launched. -/
theorem value_run : θ_run defs (onTc (τ := τ) (main (F := F))) ⟨m, fun _ => 0, ρ⟩ (fun r => ∀ c : Dev nD,
      r.2.mem ((c.tc : Thread nD τ).loc main_v101) = W14 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v101 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c)⟩)

end Cert.KernelIdeal.RunValue

end
-- ==== Proof.Spec.lean ====
/-
  The network both programs compute, as plain functions on the extended reals.

  A node's 8 input features are split into 5 numeric and 3 categorical ones; each part goes through a linear
  map and a leaky rectifier into 64 features; the 128 features side by side go through a linear map and a
  parametric rectifier. Two relational graph layers follow: a node's row is sent through a root map, the mean
  of its in-neighbours' rows (one mean per relation) through that relation's map, and a bias is added. A last
  linear map classifies.

  One row of each stage is written here as a function of the operand arrays, for any number of rows: the same
  definition then describes a block of rows and the whole array. The two programs arrange two sums differently,
  and the two laws that join them are proved here:
  * a contraction over 128 = 64 + 64 features is the sum of the contractions over the two halves;
  * the bias may be added before or after the relations' terms (addition on the extended reals is commutative
    and associative: nothing has to be finite).
-/
import Idealize.ShloMosaic.PureOps.Ideal
import Idealize.ShloMosaic.Lib.ValueIdx

noncomputable section

namespace Cert.Net

open Idealize.ShloMosaic Idealize.ShloMosaic.ValueIdx

/-- An array of `a` rows and `b` columns of extended reals. -/
abbrev Mat (a b : Nat) : Type := (⟨2, ![a, b]⟩ : Shape).Idx → EReal
/-- A vector of `a` extended reals. -/
abbrev Vct (a : Nat) : Type := (⟨1, ![a]⟩ : Shape).Idx → EReal

/-- The rectifier with slope `s` on the negative side: `x` where `x ≥ 0`, `s · x` elsewhere. -/
def act (s x : EReal) : EReal :=
  Scalar.select (Ideal.cmp .oge x (Ideal.ofBits .f32 0x00000000#32)) x (s * x)

/-- The leaky rectifier's slope: the binary32 value nearest one hundredth, the same word in both programs. -/
def slope : EReal := Ideal.ofBits .f32 0x3C23D70A#32

/-! ## The encoder, with the biases as one-row arrays and the input projection given as its two halves -/

/-- Numeric half: features 0–4 of row `r` through `W`, plus the bias, rectified. -/
def numRow {N : Nat} (x : Mat N 8) (W : Mat 5 64) (b : Mat 1 64) (r : Fin N) (k : Fin 64) : EReal :=
  act slope ((∑ i : Fin 5, x (ix2 r ⟨i.val, by omega⟩) * W (ix2 i k)) + b (ix2 0 k))

/-- Categorical half: features 5–7 of row `r` through `W`, plus the bias, rectified. -/
def catRow {N : Nat} (x : Mat N 8) (W : Mat 3 64) (b : Mat 1 64) (r : Fin N) (k : Fin 64) : EReal :=
  act slope ((∑ i : Fin 3, x (ix2 r ⟨5 + i.val, by omega⟩) * W (ix2 i k)) + b (ix2 0 k))

/-- The input projection as the sum of the two halves' contractions, plus the bias, through the parametric
    rectifier. -/
def encRow {N : Nat} (x : Mat N 8) (Wn : Mat 5 64) (bn : Mat 1 64) (Wc : Mat 3 64) (bc : Mat 1 64)
    (Wt Wb : Mat 64 128) (bi a : Mat 1 128) (r : Fin N) (j : Fin 128) : EReal :=
  act (a (ix2 0 j))
    (((∑ k : Fin 64, numRow x Wn bn r k * Wt (ix2 k j)) + (∑ k : Fin 64, catRow x Wc bc r k * Wb (ix2 k j)))
      + bi (ix2 0 j))

/-! ## A relational graph layer, the bias added last -/

def rgcnRow {N : Nat} (h m0 m1 : Mat N 128) (Wr W0 W1 : Mat 128 128) (b : Mat 1 128) (r : Fin N) (j : Fin 128) : EReal :=
  (((∑ k : Fin 128, h (ix2 r k) * Wr (ix2 k j)) + (∑ k : Fin 128, m0 (ix2 r k) * W0 (ix2 k j)))
      + (∑ k : Fin 128, m1 (ix2 r k) * W1 (ix2 k j)))
    + b (ix2 0 j)

/-- The second layer followed by the classifier. -/
def clsRow {N : Nat} (h m0 m1 : Mat N 128) (Wr W0 W1 : Mat 128 128) (b : Mat 1 128) (Wc : Mat 128 128) (bc : Mat 1 128)
    (r : Fin N) (j : Fin 128) : EReal :=
  (∑ k : Fin 128, rgcnRow h m0 m1 Wr W0 W1 b r k * Wc (ix2 k j)) + bc (ix2 0 j)

/-! ## The other arrangement: the two halves side by side through the whole projection; the bias added first -/

/-- The 128 encoded features of row `r`: the numeric half, then the categorical half. -/
def sideBySide (n c : Fin 64 → EReal) (k : Fin 128) : EReal :=
  if h : k.val < 64 then n ⟨k.val, h⟩ else c ⟨k.val - 64, by omega⟩

def rgcnRowBiasFirst {N : Nat} (h m0 m1 : Mat N 128) (Wr W0 W1 : Mat 128 128) (b : Fin 128 → EReal) (r : Fin N) (j : Fin 128) : EReal :=
  (((∑ k : Fin 128, h (ix2 r k) * Wr (ix2 k j)) + b j) + (∑ k : Fin 128, m0 (ix2 r k) * W0 (ix2 k j)))
    + (∑ k : Fin 128, m1 (ix2 r k) * W1 (ix2 k j))

/-! ## The operands as the kernel's regions take them -/

/-- A vector as a one-row array. -/
def rowOf {a : Nat} (b : Vct a) : Mat 1 a := fun i => b (ix1 (i 1))

/-- Rows 0–63 of a 128-row matrix. -/
def topHalf (W : Mat 128 128) : Mat 64 128 := fun i => W (ix2 ⟨(i 0).val, by have h : (i 0).val < 64 := (i 0).isLt; omega⟩ (i 1))

/-- Rows 64–127 of a 128-row matrix. -/
def botHalf (W : Mat 128 128) : Mat 64 128 := fun i => W (ix2 ⟨64 + (i 0).val, by have h : (i 0).val < 64 := (i 0).isLt; omega⟩ (i 1))

/-- Relation `k`'s matrix out of the pair. -/
def relMat (k : Fin 2) (W : (⟨3, ![2, 128, 128]⟩ : Shape).Idx → EReal) : Mat 128 128 := fun i => W (ix3 k (i 0) (i 1))

/-! ## The two laws -/

/-- A contraction over the 128 features side by side is the sum of the two halves' contractions, the second
    against rows 64–127 of the matrix. -/
theorem sum_sideBySide (n c : Fin 64 → EReal) (W : Fin 128 → EReal) :
    (∑ k : Fin 128, sideBySide n c k * W k)
      = (∑ k : Fin 64, n k * W ⟨k.val, by omega⟩) + (∑ k : Fin 64, c k * W ⟨64 + k.val, by omega⟩) := by
  have e := Fin.sum_univ_add (fun k : Fin (64 + 64) => sideBySide n c k * W k)
  refine e.trans ?_
  congr 1

/-- The bias may be added before the two relations' terms or after them. -/
theorem rgcnRowBiasFirst_eq {N : Nat} (h m0 m1 : Mat N 128) (Wr W0 W1 : Mat 128 128) (b : Mat 1 128) (r : Fin N) (j : Fin 128) :
    rgcnRowBiasFirst h m0 m1 Wr W0 W1 (fun q => b (ix2 0 q)) r j = rgcnRow h m0 m1 Wr W0 W1 b r j := by
  unfold rgcnRowBiasFirst rgcnRow
  rw [add_right_comm (∑ k : Fin 128, h (ix2 r k) * Wr (ix2 k j)) (b (ix2 0 j)), add_right_comm _ (b (ix2 0 j))]

end Cert.Net

end
-- ==== Proof.RegionEnc.lean ====
/-
  The encoder, read off the pipeline: each of the 50 grid points writes back 2000 rows of the [100000, 128] result,
  and row r of the block at point t is row t · 2000 + r of the array. A row of the result: features 0–4 and 5–7 of
  the node each go through a linear map, a bias and the leaky rectifier into 64 features; the two halves are
  contracted with the top and the bottom rows of the input projection, the two sums added, the bias added, and the
  parametric rectifier applied. Every product into a zero accumulator is the plain sum of products and a change of
  float format is the identity on the extended reals.
-/
import proofs.«150732_j39487929319593_2_alg».proof.Proof.Gen.KernelIdeal.Frame
import proofs.«150732_j39487929319593_2_alg».proof.Proof.Spec
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

theorem d5_lhs0 (i : S2000x64.Idx) (q : dot_S2000x5_S5x64_S2000x64_1_0_0_1_n_n.contr.Idx) :
    (dot_S2000x5_S5x64_S2000x64_1_0_0_1_n_n.lhsIdx i q 0).val = (i 0).val := by
  unfold DotDims.lhsIdx
  rw [dif_neg (show ¬(0 : Fin S2000x5.rank) ∈ dot_S2000x5_S5x64_S2000x64_1_0_0_1_n_n.lhsBatch by decide), dif_pos (show (0 : Fin S2000x5.rank) ∈ dot_S2000x5_S5x64_S2000x64_1_0_0_1_n_n.lhsNonContracting by decide)]
  rfl
theorem d5_lhs1 (i : S2000x64.Idx) (q : dot_S2000x5_S5x64_S2000x64_1_0_0_1_n_n.contr.Idx) :
    (dot_S2000x5_S5x64_S2000x64_1_0_0_1_n_n.lhsIdx i q 1).val = (q ⟨0, by decide⟩).val :=
  dot_S2000x5_S5x64_S2000x64_1_0_0_1_n_n.lhsIdx_val_of_single rfl i q
theorem d5_rhs0 (i : S2000x64.Idx) (q : dot_S2000x5_S5x64_S2000x64_1_0_0_1_n_n.contr.Idx) :
    (dot_S2000x5_S5x64_S2000x64_1_0_0_1_n_n.rhsIdx i q 0).val = (q ⟨0, by decide⟩).val :=
  dot_S2000x5_S5x64_S2000x64_1_0_0_1_n_n.rhsIdx_val_of_single rfl i q
theorem d5_rhs1 (i : S2000x64.Idx) (q : dot_S2000x5_S5x64_S2000x64_1_0_0_1_n_n.contr.Idx) :
    (dot_S2000x5_S5x64_S2000x64_1_0_0_1_n_n.rhsIdx i q 1).val = (i 1).val := by
  unfold DotDims.rhsIdx
  rw [dif_neg (show ¬(1 : Fin S5x64.rank) ∈ dot_S2000x5_S5x64_S2000x64_1_0_0_1_n_n.rhsBatch by decide), dif_pos (show (1 : Fin S5x64.rank) ∈ dot_S2000x5_S5x64_S2000x64_1_0_0_1_n_n.rhsNonContracting by decide)]
  rfl

/-- A 2000×5 by 5×64 product into the zero accumulator, at row p and column q: the sum over the 5 numeric features. -/
theorem mmd5 {φ₁ φ₂ : FTy} (a : FVec Ideal S2000x5 φ₁) (b : FVec Ideal S5x64 φ₂) (p : Fin 2000) (q : Fin 64) :
    matmul dot_S2000x5_S5x64_S2000x64_1_0_0_1_n_n none a b (constant (F := Ideal) S2000x64 .f32 0x00000000#32) (ix2 p q)
      = ∑ k : Fin 5, a (ix2 p k) * b (ix2 k q) := by
  simp only [matmul]
  rw [Ideal.matmul_constant_zero_apply, ← Equiv.sum_comp (ValueIdx.contrEquiv1 dot_S2000x5_S5x64_S2000x64_1_0_0_1_n_n 5 rfl rfl).symm]
  refine Finset.sum_congr rfl fun k _ => ?_
  have hk := ValueIdx.contrEquiv1_symm_val dot_S2000x5_S5x64_S2000x64_1_0_0_1_n_n 5 rfl rfl k
  have el : dot_S2000x5_S5x64_S2000x64_1_0_0_1_n_n.lhsIdx (ix2 p q) ((ValueIdx.contrEquiv1 dot_S2000x5_S5x64_S2000x64_1_0_0_1_n_n 5 rfl rfl).symm k) = ix2 p k := funext fun a => Fin.ext (by
    match a with
    | ⟨0, _⟩ => exact d5_lhs0 _ _
    | ⟨1, _⟩ => exact (d5_lhs1 _ _).trans hk)
  have er : dot_S2000x5_S5x64_S2000x64_1_0_0_1_n_n.rhsIdx (ix2 p q) ((ValueIdx.contrEquiv1 dot_S2000x5_S5x64_S2000x64_1_0_0_1_n_n 5 rfl rfl).symm k) = ix2 k q := funext fun a => Fin.ext (by
    match a with
    | ⟨0, _⟩ => exact (d5_rhs0 _ _).trans hk
    | ⟨1, _⟩ => exact d5_rhs1 _ _)
  rw [el, er]

theorem d3_lhs0 (i : S2000x64.Idx) (q : dot_S2000x3_S3x64_S2000x64_1_0_0_1_n_n.contr.Idx) :
    (dot_S2000x3_S3x64_S2000x64_1_0_0_1_n_n.lhsIdx i q 0).val = (i 0).val := by
  unfold DotDims.lhsIdx
  rw [dif_neg (show ¬(0 : Fin S2000x3.rank) ∈ dot_S2000x3_S3x64_S2000x64_1_0_0_1_n_n.lhsBatch by decide), dif_pos (show (0 : Fin S2000x3.rank) ∈ dot_S2000x3_S3x64_S2000x64_1_0_0_1_n_n.lhsNonContracting by decide)]
  rfl
theorem d3_lhs1 (i : S2000x64.Idx) (q : dot_S2000x3_S3x64_S2000x64_1_0_0_1_n_n.contr.Idx) :
    (dot_S2000x3_S3x64_S2000x64_1_0_0_1_n_n.lhsIdx i q 1).val = (q ⟨0, by decide⟩).val :=
  dot_S2000x3_S3x64_S2000x64_1_0_0_1_n_n.lhsIdx_val_of_single rfl i q
theorem d3_rhs0 (i : S2000x64.Idx) (q : dot_S2000x3_S3x64_S2000x64_1_0_0_1_n_n.contr.Idx) :
    (dot_S2000x3_S3x64_S2000x64_1_0_0_1_n_n.rhsIdx i q 0).val = (q ⟨0, by decide⟩).val :=
  dot_S2000x3_S3x64_S2000x64_1_0_0_1_n_n.rhsIdx_val_of_single rfl i q
theorem d3_rhs1 (i : S2000x64.Idx) (q : dot_S2000x3_S3x64_S2000x64_1_0_0_1_n_n.contr.Idx) :
    (dot_S2000x3_S3x64_S2000x64_1_0_0_1_n_n.rhsIdx i q 1).val = (i 1).val := by
  unfold DotDims.rhsIdx
  rw [dif_neg (show ¬(1 : Fin S3x64.rank) ∈ dot_S2000x3_S3x64_S2000x64_1_0_0_1_n_n.rhsBatch by decide), dif_pos (show (1 : Fin S3x64.rank) ∈ dot_S2000x3_S3x64_S2000x64_1_0_0_1_n_n.rhsNonContracting by decide)]
  rfl

/-- A 2000×3 by 3×64 product into the zero accumulator: the sum over the 3 categorical features. -/
theorem mmd3 {φ₁ φ₂ : FTy} (a : FVec Ideal S2000x3 φ₁) (b : FVec Ideal S3x64 φ₂) (p : Fin 2000) (q : Fin 64) :
    matmul dot_S2000x3_S3x64_S2000x64_1_0_0_1_n_n none a b (constant (F := Ideal) S2000x64 .f32 0x00000000#32) (ix2 p q)
      = ∑ k : Fin 3, a (ix2 p k) * b (ix2 k q) := by
  simp only [matmul]
  rw [Ideal.matmul_constant_zero_apply, ← Equiv.sum_comp (ValueIdx.contrEquiv1 dot_S2000x3_S3x64_S2000x64_1_0_0_1_n_n 3 rfl rfl).symm]
  refine Finset.sum_congr rfl fun k _ => ?_
  have hk := ValueIdx.contrEquiv1_symm_val dot_S2000x3_S3x64_S2000x64_1_0_0_1_n_n 3 rfl rfl k
  have el : dot_S2000x3_S3x64_S2000x64_1_0_0_1_n_n.lhsIdx (ix2 p q) ((ValueIdx.contrEquiv1 dot_S2000x3_S3x64_S2000x64_1_0_0_1_n_n 3 rfl rfl).symm k) = ix2 p k := funext fun a => Fin.ext (by
    match a with
    | ⟨0, _⟩ => exact d3_lhs0 _ _
    | ⟨1, _⟩ => exact (d3_lhs1 _ _).trans hk)
  have er : dot_S2000x3_S3x64_S2000x64_1_0_0_1_n_n.rhsIdx (ix2 p q) ((ValueIdx.contrEquiv1 dot_S2000x3_S3x64_S2000x64_1_0_0_1_n_n 3 rfl rfl).symm k) = ix2 k q := funext fun a => Fin.ext (by
    match a with
    | ⟨0, _⟩ => exact (d3_rhs0 _ _).trans hk
    | ⟨1, _⟩ => exact d3_rhs1 _ _)
  rw [el, er]

theorem d64_lhs0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem d64_lhs1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem d64_rhs0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem d64_rhs1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- A 2000×64 by 64×128 product into the zero accumulator: the sum over the 64 features of one half. -/
theorem mmd64 {φ₁ φ₂ : FTy} (a : FVec Ideal S2000x64 φ₁) (b : FVec Ideal S64x128 φ₂) (p : Fin 2000) (q : Fin 128) :
    matmul dot_S2000x64_S64x128_S2000x128_1_0_0_1_n_n none a b (constant (F := Ideal) S2000x128 .f32 0x00000000#32) (ix2 p q)
      = ∑ k : Fin 64, a (ix2 p k) * b (ix2 k q) := by
  simp only [matmul]
  rw [Ideal.matmul_constant_zero_apply, ← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 p q) ((ValueIdx.contrEquiv1 dot_S2000x64_S64x128_S2000x128_1_0_0_1_n_n 64 rfl rfl).symm k) = ix2 p k := funext fun a => Fin.ext (by
    match a with
    | ⟨0, _⟩ => exact d64_lhs0 _ _
    | ⟨1, _⟩ => exact (d64_lhs1 _ _).trans hk)
  have er : dot_S2000x64_S64x128_S2000x128_1_0_0_1_n_n.rhsIdx (ix2 p q) ((ValueIdx.contrEquiv1 dot_S2000x64_S64x128_S2000x128_1_0_0_1_n_n 64 rfl rfl).symm k) = ix2 k q := funext fun a => Fin.ext (by
    match a with
    | ⟨0, _⟩ => exact (d64_rhs0 _ _).trans hk
    | ⟨1, _⟩ => exact d64_rhs1 _ _)
  rw [el, er]

/-- A bias row broadcast down the 2000 rows reads the bias at the column (64 columns). -/
theorem bcast64 {α : Type} (x : S1x64.Idx → α) (p : Fin 2000) (q : Fin 64) :
    broadcastTo S2000x64 x broadcasts_S1x64_S2000x64 (ix2 p q) = x (ix2 0 q) :=
  broadcastTo_apply x broadcasts_S1x64_S2000x64 (ix2 p q) (ix2 0 q) (fun a => match a with
    | ⟨0, _⟩ => by show 0 = if (1 : Nat) = 1 then 0 else _; rw [if_pos rfl]
    | ⟨1, _⟩ => by show q.val = if (64 : Nat) = 1 then 0 else q.val; rw [if_neg (by decide)])

/-- A bias row broadcast down the 2000 rows reads the bias at the column (128 columns). -/
theorem bcast128_e {α : Type} (x : S1x128.Idx → α) (p : Fin 2000) (q : Fin 128) :
    broadcastTo S2000x128 x broadcasts_S1x128_S2000x128 (ix2 p q) = x (ix2 0 q) :=
  broadcastTo_apply x broadcasts_S1x128_S2000x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- The first five columns of a block of rows. -/
theorem slice5 {α : Type} (x : S2000x8.Idx → α) (p : Fin 2000) (i : Fin 5) :
    extractStridedSlice S2000x5 ![0, 0] x slices_S2000x8_o0_0_S2000x5 (ix2 p i) = x (ix2 p ⟨i.val, by omega⟩) :=
  extractStridedSlice_apply ![0, 0] x slices_S2000x8_o0_0_S2000x5 (ix2 p i) (ix2 p ⟨i.val, by omega⟩) (fun a => match a with
    | ⟨0, _⟩ => by show p.val = 0 + p.val; omega
    | ⟨1, _⟩ => by show i.val = 0 + i.val; omega)

/-- Columns 5 to 7 of a block of rows. -/
theorem slice3 {α : Type} (x : S2000x8.Idx → α) (p : Fin 2000) (i : Fin 3) :
    extractStridedSlice S2000x3 ![0, 5] x slices_S2000x8_o0_5_S2000x3 (ix2 p i) = x (ix2 p ⟨5 + i.val, by omega⟩) :=
  extractStridedSlice_apply ![0, 5] x slices_S2000x8_o0_5_S2000x3 (ix2 p i) (ix2 p ⟨5 + i.val, by omega⟩) (fun a => match a with
    | ⟨0, _⟩ => by show p.val = 0 + p.val; omega
    | ⟨1, _⟩ => by show 5 + i.val = 5 + i.val; omega)

/-- The leaky rectifier as the body writes it (compare with zero, select between the value and the slope times it). -/
theorem leaky_apply {s : Shape} (z : FVec Ideal s .f32) (i : s.Idx) :
    select (cmpf .oge z (broadcast s (Scalar.ofBits (F := Ideal) .f32 0x00000000#32))) z (mulf (broadcast s (Scalar.ofBits (F := Ideal) .f32 0x3C23D70A#32)) z) i
      = Cert.Net.act Cert.Net.slope (z i) := rfl

/-- The parametric rectifier as the body writes it, the slope an array. -/
theorem prelu_apply {s : Shape} (z a : FVec Ideal s .f32) (i : s.Idx) :
    select (cmpf .oge z (broadcast s (Scalar.ofBits (F := Ideal) .f32 0x00000000#32))) z (mulf a z) i
      = Cert.Net.act (a i) (z i) := rfl

set_option maxHeartbeats 400000 in
/-- The numeric half through the top rows of the input projection. -/
theorem enc_pay3 (v0 : Vec Ideal S2000x8 .f32) (v3 : Vec Ideal S5x64 .f32) (v7 : Vec Ideal S1x64 .f32) (v29 : Vec Ideal S64x128 .f32) (p : Fin 2000) (q : Fin 128) :
    Gen.k0_pay3 (F := Ideal) v0 v3 v7 v29 (ix2 p q) = ∑ k : Fin 64, Cert.Net.numRow (N := 2000) v0 v3 v7 p k * v29 (ix2 k q) := by
  unfold Gen.k0_pay3
  simp only [shapeCast_self]
  rw [mmd64]
  refine Finset.sum_congr rfl fun k _ => ?_
  rw [truncf_apply, truncf_apply, leaky_apply, addf_apply, mmd5, bcast64]
  unfold Cert.Net.numRow
  simp only [truncf_apply, slice5]

set_option maxHeartbeats 400000 in
/-- The categorical half, rectified. -/
theorem enc_pay4 (v0 : Vec Ideal S2000x8 .f32) (v16 : Vec Ideal S3x64 .f32) (v20 : Vec Ideal S1x64 .f32) (p : Fin 2000) (k : Fin 64) :
    Gen.k0_pay4 (F := Ideal) v0 v16 v20 (ix2 p k) = Cert.Net.catRow (N := 2000) v0 v16 v20 p k := by
  unfold Gen.k0_pay4
  simp only [shapeCast_self]
  rw [truncf_apply, leaky_apply, addf_apply, mmd3, bcast64]
  unfold Cert.Net.catRow
  simp only [truncf_apply, slice3]

/-- The bottom rows of the input projection, in the narrower format: the same extended reals. -/
theorem enc_pay2 (v32 : Vec Ideal S64x128 .f32) (i : S64x128.Idx) : Gen.k0_pay2 (F := Ideal) v32 i = v32 i := by
  unfold Gen.k0_pay2
  simp only [shapeCast_self]
  rfl

set_option maxHeartbeats 400000 in
/-- The stored value: the two halves' contractions added, plus the bias, through the parametric rectifier. -/
theorem enc_pay1 (v34 : FVec Ideal S64x128 .bf16) (v36 : FVec Ideal S2000x128 .f32) (v37 : FVec Ideal S2000x64 .bf16) (v40 v44 : Vec Ideal S1x128 .f32) (p : Fin 2000) (q : Fin 128) :
    Gen.k0_pay1 (F := Ideal) v34 v36 v37 v40 v44 (ix2 p q)
      = Cert.Net.act (v44 (ix2 0 q)) ((v36 (ix2 p q) + ∑ k : Fin 64, v37 (ix2 p k) * v34 (ix2 k q)) + v40 (ix2 0 q)) := by
  unfold Gen.k0_pay1
  simp only [shapeCast_self]
  rw [prelu_apply, bcast128_e, addf_apply, addf_apply, mmd64, bcast128_e]

set_option maxHeartbeats 400000 in
/-- What the body leaves in the output block, row by row. -/
theorem out0_eq (x0 : Vec Ideal S2000x8 .f32) (x1 : Vec Ideal S5x64 .f32) (x2 : Vec Ideal S1x64 .f32) (x3 : Vec Ideal S3x64 .f32) (x4 : Vec Ideal S1x64 .f32) (x5 x6 : Vec Ideal S64x128 .f32) (x7 x8 : Vec Ideal S1x128 .f32) :
    Gen.out0_9 (F := Ideal) x0 x1 x2 x3 x4 x5 x6 x7 x8 = fun y => Cert.Net.encRow (N := 2000) x0 x1 x2 x3 x4 x5 x6 x7 x8 (y 0) (y 1) := by
  have hz : (![0, 0] : Fin 2 → Nat) = fun _ => 0 := funext fun a => by fin_cases a <;> rfl
  unfold Gen.out0_9
  rw [View.canon_unit_zero hz]
  simp only [View.ld_unit_zero (S := S2000x8) hz, View.ld_unit_zero (S := S5x64) hz, View.ld_unit_zero (S := S1x64) hz, View.ld_unit_zero (S := S3x64) hz, View.ld_unit_zero (S := S64x128) hz, View.ld_unit_zero (S := S1x128) hz]
  funext y
  obtain ⟨p, q, rfl⟩ : ∃ (p : Fin 2000) (q : Fin 128), y = ix2 p q := ⟨y 0, y 1, eq_ix2 y⟩
  rw [enc_pay1]
  unfold Cert.Net.encRow
  simp only [enc_pay2, enc_pay3, enc_pay4]

variable (V : (c : Dev nD) → (b : Ref sig .tc) → Buf (Elt Ideal) ((c : Thread nD τ).loc b))

/-- The printed index maps over the 50 points: a row-tiled window's block index is the point on the rows and 0 on the
    columns; a whole-array window's is 0 on both. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row p of point t's block is row t · 2000 + p of the array. -/
abbrev rowOf0 (t : Fin cfg0.N) (p : Fin 2000) : Fin 100000 := ⟨t.val * 2000 + p.val, by have ht : t.val < 50 := t.isLt; have := p.isLt; omega⟩

set_option maxHeartbeats 400000 in
theorem blk0_0 (c : Dev nD) (t : Fin cfg0.N) (p : Fin 2000) (k : Fin 8) :
    Gen.iblk0 (F := Ideal) V c 0 t (ix2 p k) = (V c main_arg0 : S100000x8.Idx → EReal) (ix2 (rowOf0 t p) k) := by
  have e := idx0 t
  show (V c main_arg0 : S100000x8.Idx → EReal) (((cfg0.win 0).blk t).view.emb (ix2 p k)) = _
  refine congrArg (V c main_arg0 : S100000x8.Idx → EReal) (funext fun a => Fin.ext ?_)
  match a with
  | ⟨0, _⟩ => show win0_0.index t (0 : Fin 2) * 2000 + 1 * p.val = t.val * 2000 + p.val; omega
  | ⟨1, _⟩ => show win0_0.index t (1 : Fin 2) * 8 + 1 * k.val = k.val; omega

set_option maxHeartbeats 400000 in
theorem blk0_1 (c : Dev nD) (t : Fin cfg0.N) (k : Fin 5) (q : Fin 64) :
    Gen.iblk0 (F := Ideal) V c 1 t (ix2 k q) = (V c main_arg3 : S5x64.Idx → EReal) (ix2 k q) := by
  have e := idx0 t
  show (V c main_arg3 : S5x64.Idx → EReal) (((cfg0.win 1).blk t).view.emb (ix2 k q)) = _
  refine congrArg (V c main_arg3 : S5x64.Idx → EReal) (funext fun a => Fin.ext ?_)
  match a with
  | ⟨0, _⟩ => show win0_1.index t (0 : Fin 2) * 5 + 1 * k.val = k.val; omega
  | ⟨1, _⟩ => show win0_1.index t (1 : Fin 2) * 64 + 1 * q.val = q.val; omega

set_option maxHeartbeats 400000 in
theorem blk0_2 (c : Dev nD) (t : Fin cfg0.N) (q : Fin 64) :
    Gen.iblk0 (F := Ideal) V c 2 t (ix2 0 q) = (V c main_v4 : S1x64.Idx → EReal) (ix2 0 q) := by
  have e := idx0 t
  show (V c main_v4 : S1x64.Idx → EReal) (((cfg0.win 2).blk t).view.emb (ix2 0 q)) = _
  refine congrArg (V c main_v4 : S1x64.Idx → EReal) (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

set_option maxHeartbeats 400000 in
theorem blk0_3 (c : Dev nD) (t : Fin cfg0.N) (k : Fin 3) (q : Fin 64) :
    Gen.iblk0 (F := Ideal) V c 3 t (ix2 k q) = (V c main_arg5 : S3x64.Idx → EReal) (ix2 k q) := by
  have e := idx0 t
  show (V c main_arg5 : S3x64.Idx → EReal) (((cfg0.win 3).blk t).view.emb (ix2 k q)) = _
  refine congrArg (V c main_arg5 : S3x64.Idx → EReal) (funext fun a => Fin.ext ?_)
  match a with
  | ⟨0, _⟩ => show win0_3.index t (0 : Fin 2) * 3 + 1 * k.val = k.val; omega
  | ⟨1, _⟩ => show win0_3.index t (1 : Fin 2) * 64 + 1 * q.val = q.val; omega

set_option maxHeartbeats 400000 in
theorem blk0_4 (c : Dev nD) (t : Fin cfg0.N) (q : Fin 64) :
    Gen.iblk0 (F := Ideal) V c 4 t (ix2 0 q) = (V c main_v5 : S1x64.Idx → EReal) (ix2 0 q) := by
  have e := idx0 t
  show (V c main_v5 : S1x64.Idx → EReal) (((cfg0.win 4).blk t).view.emb (ix2 0 q)) = _
  refine congrArg (V c main_v5 : S1x64.Idx → EReal) (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

set_option maxHeartbeats 400000 in
theorem blk0_5 (c : Dev nD) (t : Fin cfg0.N) (k : Fin 64) (q : Fin 128) :
    Gen.iblk0 (F := Ideal) V c 5 t (ix2 k q) = (V c main_v8 : S64x128.Idx → EReal) (ix2 k q) := by
  have e := idx0 t
  show (V c main_v8 : S64x128.Idx → EReal) (((cfg0.win 5).blk t).view.emb (ix2 k q)) = _
  refine congrArg (V c main_v8 : S64x128.Idx → EReal) (funext fun a => Fin.ext ?_)
  match a with
  | ⟨0, _⟩ => show win0_5.index t (0 : Fin 2) * 64 + 1 * k.val = k.val; omega
  | ⟨1, _⟩ => show win0_5.index t (1 : Fin 2) * 128 + 1 * q.val = q.val; omega

set_option maxHeartbeats 400000 in
theorem blk0_6 (c : Dev nD) (t : Fin cfg0.N) (k : Fin 64) (q : Fin 128) :
    Gen.iblk0 (F := Ideal) V c 6 t (ix2 k q) = (V c main_v9 : S64x128.Idx → EReal) (ix2 k q) := by
  have e := idx0 t
  show (V c main_v9 : S64x128.Idx → EReal) (((cfg0.win 6).blk t).view.emb (ix2 k q)) = _
  refine congrArg (V c main_v9 : S64x128.Idx → EReal) (funext fun a => Fin.ext ?_)
  match a with
  | ⟨0, _⟩ => show win0_6.index t (0 : Fin 2) * 64 + 1 * k.val = k.val; omega
  | ⟨1, _⟩ => show win0_6.index t (1 : Fin 2) * 128 + 1 * q.val = q.val; omega

set_option maxHeartbeats 400000 in
theorem blk0_7 (c : Dev nD) (t : Fin cfg0.N) (q : Fin 128) :
    Gen.iblk0 (F := Ideal) V c 7 t (ix2 0 q) = (V c main_v6 : S1x128.Idx → EReal) (ix2 0 q) := by
  have e := idx0 t
  show (V c main_v6 : S1x128.Idx → EReal) (((cfg0.win 7).blk t).view.emb (ix2 0 q)) = _
  refine congrArg (V c main_v6 : S1x128.Idx → EReal) (funext fun a => Fin.ext ?_)
  match a with
  | ⟨0, _⟩ => show win0_7.index t (0 : Fin 2) * 1 + 1 * 0 = 0; omega
  | ⟨1, _⟩ => show win0_7.index t (1 : Fin 2) * 128 + 1 * q.val = q.val; omega

set_option maxHeartbeats 400000 in
theorem blk0_8 (c : Dev nD) (t : Fin cfg0.N) (q : Fin 128) :
    Gen.iblk0 (F := Ideal) V c 8 t (ix2 0 q) = (V c main_v7 : S1x128.Idx → EReal) (ix2 0 q) := by
  have e := idx0 t
  show (V c main_v7 : S1x128.Idx → EReal) (((cfg0.win 8).blk t).view.emb (ix2 0 q)) = _
  refine congrArg (V c main_v7 : S1x128.Idx → EReal) (funext fun a => Fin.ext ?_)
  match a with
  | ⟨0, _⟩ => show win0_8.index t (0 : Fin 2) * 1 + 1 * 0 = 0; omega
  | ⟨1, _⟩ => show win0_8.index t (1 : Fin 2) * 128 + 1 * q.val = q.val; omega

/-- The encoder's result as one array: row r from row r of the input features and the whole weight arrays. -/
abbrev G0 (c : Dev nD) : S100000x128.Idx → EReal := fun i =>
  Cert.Net.encRow (N := 100000) (V c main_arg0) (V c main_arg3) (V c main_v4) (V c main_arg5) (V c main_v5) (V c main_v8) (V c main_v9) (V c main_v6) (V c main_v7) (i 0) (i 1)

set_option maxHeartbeats 400000 in
/-- What point t writes back is block t of that array. -/
theorem flushed0_eq (c : Dev nD) (t : Fin cfg0.N) :
    (Gen.dat0 (F := Ideal) V c).flushed 9 t = ((cfg0.win 9).blk t).view.read (Elt Ideal) (G0 V c) := by
  show (cfg0.win 9).cut (grid0.coords t) ((Gen.dat0 V c).after 9 t) = _
  rw [Gen.after0_9, out0_eq]
  have e := idx0 t
  funext y
  obtain ⟨p, q, rfl⟩ : ∃ (p : Fin 2000) (q : Fin 128), y = ix2 p q := ⟨y 0, y 1, eq_ix2 y⟩
  have hemb : ((cfg0.win 9).blk t).view.emb (ix2 p q) = (ix2 (rowOf0 t p) q : S100000x128.Idx) := funext fun a => Fin.ext (by
    match a with
    | ⟨0, _⟩ => show win0_9.index t (0 : Fin 2) * 2000 + 1 * p.val = t.val * 2000 + p.val; omega
    | ⟨1, _⟩ => show win0_9.index t (1 : Fin 2) * 128 + 1 * q.val = q.val; omega)
  show Cert.Net.encRow (N := 2000) (Gen.iblk0 V c 0 t) (Gen.iblk0 V c 1 t) (Gen.iblk0 V c 2 t) (Gen.iblk0 V c 3 t) (Gen.iblk0 V c 4 t) (Gen.iblk0 V c 5 t) (Gen.iblk0 V c 6 t) (Gen.iblk0 V c 7 t) (Gen.iblk0 V c 8 t) p q
    = G0 V c (((cfg0.win 9).blk t).view.emb (ix2 p q))
  rw [hemb]
  show _ = Cert.Net.encRow (N := 100000) (V c main_arg0) (V c main_arg3) (V c main_v4) (V c main_arg5) (V c main_v5) (V c main_v8) (V c main_v9) (V c main_v6) (V c main_v7) (rowOf0 t p) q
  unfold Cert.Net.encRow Cert.Net.numRow Cert.Net.catRow
  simp only [blk0_0 V c t, blk0_1 V c t, blk0_2 V c t, blk0_3 V c t, blk0_4 V c t, blk0_5 V c t, blk0_6 V c t, blk0_7 V c t, blk0_8 V c t]

/-- An index of the array is in point t's block iff each coordinate is in the block's range on its axis. -/
theorem mem_blk0 (t : Fin cfg0.N) (i : S100000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v10).slice (win0_9.rect t)).set ↔ _
  rw [View.set_slice_whole, Rect.mem_set_unit]
  exact Iff.rfl

/-- Row r is in the block of point r / 2000. -/
theorem cover0 (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  have ht : (i 0).val / 2000 < cfg0.N := by show _ < 50; omega
  obtain ⟨-, -, -, -, -, -, -, -, -, -, -, -, -, -, -, -, -, -, e0, e1⟩ := idx0 ⟨(i 0).val / 2000, ht⟩
  have e0' : win0_9.index ⟨(i 0).val / 2000, ht⟩ (0 : Fin 2) = (i 0).val / 2000 := e0
  refine ⟨⟨(i 0).val / 2000, ht⟩, flush0_9 _, ?_⟩
  rw [mem_blk0]
  intro a
  match a with
  | ⟨0, _⟩ => show win0_9.index ⟨(i 0).val / 2000, ht⟩ (0 : Fin 2) * 2000 ≤ (i 0).val ∧ (i 0).val < win0_9.index ⟨(i 0).val / 2000, ht⟩ (0 : Fin 2) * 2000 + 2000; omega
  | ⟨1, _⟩ => show win0_9.index ⟨(i 0).val / 2000, ht⟩ (1 : Fin 2) * 128 ≤ (i 1).val ∧ (i 1).val < win0_9.index ⟨(i 0).val / 2000, ht⟩ (1 : Fin 2) * 128 + 128; omega

/-- The array after the region: the encoder of the arrays the region found, row by row. -/
theorem final0 (c : Dev nD) :
    (Gen.dat0 (F := Ideal) V c).arrAt 9 cfg0.N = fun i => Cert.Net.encRow (N := 100000) (V c main_arg0) (V c main_arg3) (V c main_v4) (V c main_arg5) (V c main_v5) (V c main_v8) (V c main_v9) (V c main_v6) (V c main_v7) (i 0) (i 1) :=
  (Gen.dat0 (F := Ideal) V c).arrAt_eq_of_cover 9 (G0 V c) (fun t _ => flushed0_eq V c t) cover0

end Cert.KernelIdeal.RegionValue

end
-- ==== Proof.RegionRgcn.lean ====
/-
  The first relational graph layer, read off the pipeline: each of the 50 grid points writes back 2000 rows of the
  [100000, 128] result, and row r of the block at point t is row t · 2000 + r of the array. A row of the result is
  the row of the node features through the root map, plus the two relations' mean rows through their maps, plus the
  bias: three contractions over the 128 features (a product into a zero accumulator is the plain sum of products;
  a change of float format is the identity on the extended reals) and a broadcast bias row.
-/
import proofs.«150732_j39487929319593_2_alg».proof.Proof.Gen.KernelIdeal.Frame
import proofs.«150732_j39487929319593_2_alg».proof.Proof.Spec
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

theorem d128_lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem d128_lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem d128_rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem d128_rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 by 128×128 product into the zero accumulator, at row p and column q: the sum over the 128 shared
    features of the products. -/
theorem mm128 {φ₁ φ₂ : FTy} (a : FVec Ideal S2000x128 φ₁) (b : FVec Ideal S128x128 φ₂) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact d128_lhs0 _ _
    | ⟨1, _⟩ => exact (d128_lhs1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (d128_rhs0 _ _).trans hk
    | ⟨1, _⟩ => exact d128_rhs1 _ _)
  rw [el, er]

/-- The bias row broadcast down the 2000 rows reads the bias at the column. -/
theorem bcast128 {α : Type} (x : S1x128.Idx → α) (p : Fin 2000) (q : Fin 128) :
    broadcastTo S2000x128 x broadcasts_S1x128_S2000x128 (ix2 p q) = x (ix2 0 q) :=
  broadcastTo_apply x broadcasts_S1x128_S2000x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

set_option maxHeartbeats 400000 in
theorem pay1 (v0 v3 v6 : Vec Ideal S2000x128 .f32) (v9 v11 v14 : Vec Ideal S128x128 .f32) (v22 : Vec Ideal S1x128 .f32) (p : Fin 2000) (q : Fin 128) :
    Gen.k1_pay1 (F := Ideal) v0 v3 v6 v9 v11 v14 v22 (ix2 p q) = Cert.Net.rgcnRow (N := 2000) v0 v3 v6 v9 v11 v14 v22 p q := by
  unfold Gen.k1_pay1 Cert.Net.rgcnRow
  simp only [shapeCast_self]
  rw [addf_apply, addf_apply, addf_apply, mm128, mm128, mm128, bcast128]
  rfl

/-- What the body leaves in the output block, row by row. -/
theorem out1_eq (x0 x1 x2 : Vec Ideal S2000x128 .f32) (x3 x4 x5 : Vec Ideal S128x128 .f32) (x6 : Vec Ideal S1x128 .f32) :
    Gen.out1_7 (F := Ideal) x0 x1 x2 x3 x4 x5 x6 = fun y => Cert.Net.rgcnRow (N := 2000) x0 x1 x2 x3 x4 x5 x6 (y 0) (y 1) := by
  have hz : (![0, 0] : Fin 2 → Nat) = fun _ => 0 := funext fun a => by fin_cases a <;> rfl
  unfold Gen.out1_7
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  exact pay1 x0 x1 x2 x3 x4 x5 x6 p q

variable (V : (c : Dev nD) → (b : Ref sig .tc) → Buf (Elt Ideal) ((c : Thread nD τ).loc b))

/-- The printed index maps over the 50 points: a row-tiled window's block index is the point on the rows and 0 on the
    columns; a whole-array window's is 0 on both. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of point t's block is row t · 2000 + p of the array. -/
abbrev rowOf1 (t : Fin cfg1.N) (p : Fin 2000) : Fin 100000 := ⟨t.val * 2000 + p.val, by have ht : t.val < 50 := t.isLt; have := p.isLt; omega⟩

set_option maxHeartbeats 400000 in
theorem blk1_0 (c : Dev nD) (t : Fin cfg1.N) (p : Fin 2000) (k : Fin 128) :
    Gen.iblk1 (F := Ideal) V c 0 t (ix2 p k) = (V c main_v10 : S100000x128.Idx → EReal) (ix2 (rowOf1 t p) k) := by
  obtain ⟨e00, e01, -⟩ := idx1 t
  show (V c main_v10 : S100000x128.Idx → EReal) (((cfg1.win 0).blk t).view.emb (ix2 p k)) = _
  refine congrArg (V c main_v10 : S100000x128.Idx → EReal) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

set_option maxHeartbeats 400000 in
theorem blk1_1 (c : Dev nD) (t : Fin cfg1.N) (p : Fin 2000) (k : Fin 128) :
    Gen.iblk1 (F := Ideal) V c 1 t (ix2 p k) = (V c main_v33 : S100000x128.Idx → EReal) (ix2 (rowOf1 t p) k) := by
  have e := idx1 t
  show (V c main_v33 : S100000x128.Idx → EReal) (((cfg1.win 1).blk t).view.emb (ix2 p k)) = _
  refine congrArg (V c main_v33 : S100000x128.Idx → EReal) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega

set_option maxHeartbeats 400000 in
theorem blk1_2 (c : Dev nD) (t : Fin cfg1.N) (p : Fin 2000) (k : Fin 128) :
    Gen.iblk1 (F := Ideal) V c 2 t (ix2 p k) = (V c main_v49 : S100000x128.Idx → EReal) (ix2 (rowOf1 t p) k) := by
  have e := idx1 t
  show (V c main_v49 : S100000x128.Idx → EReal) (((cfg1.win 2).blk t).view.emb (ix2 p k)) = _
  refine congrArg (V c main_v49 : S100000x128.Idx → EReal) (funext fun a => Fin.ext ?_)
  match a with
  | ⟨0, _⟩ => show win1_2.index t (0 : Fin 2) * 2000 + 1 * p.val = t.val * 2000 + p.val; omega
  | ⟨1, _⟩ => show win1_2.index t (1 : Fin 2) * 128 + 1 * k.val = k.val; omega

set_option maxHeartbeats 400000 in
theorem blk1_3 (c : Dev nD) (t : Fin cfg1.N) (k : Fin 128) (q : Fin 128) :
    Gen.iblk1 (F := Ideal) V c 3 t (ix2 k q) = (V c main_arg11 : S128x128.Idx → EReal) (ix2 k q) := by
  have e := idx1 t
  show (V c main_arg11 : S128x128.Idx → EReal) (((cfg1.win 3).blk t).view.emb (ix2 k q)) = _
  refine congrArg (V c main_arg11 : S128x128.Idx → EReal) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

set_option maxHeartbeats 400000 in
theorem blk1_4 (c : Dev nD) (t : Fin cfg1.N) (k : Fin 128) (q : Fin 128) :
    Gen.iblk1 (F := Ideal) V c 4 t (ix2 k q) = (V c main_v51 : S128x128.Idx → EReal) (ix2 k q) := by
  have e := idx1 t
  show (V c main_v51 : S128x128.Idx → EReal) (((cfg1.win 4).blk t).view.emb (ix2 k q)) = _
  refine congrArg (V c main_v51 : S128x128.Idx → EReal) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

set_option maxHeartbeats 400000 in
theorem blk1_5 (c : Dev nD) (t : Fin cfg1.N) (k : Fin 128) (q : Fin 128) :
    Gen.iblk1 (F := Ideal) V c 5 t (ix2 k q) = (V c main_v53 : S128x128.Idx → EReal) (ix2 k q) := by
  have e := idx1 t
  show (V c main_v53 : S128x128.Idx → EReal) (((cfg1.win 5).blk t).view.emb (ix2 k q)) = _
  refine congrArg (V c main_v53 : S128x128.Idx → EReal) (funext fun a => Fin.ext ?_)
  match a with
  | ⟨0, _⟩ => show win1_5.index t (0 : Fin 2) * 128 + 1 * k.val = k.val; omega
  | ⟨1, _⟩ => show win1_5.index t (1 : Fin 2) * 128 + 1 * q.val = q.val; omega

set_option maxHeartbeats 400000 in
theorem blk1_6 (c : Dev nD) (t : Fin cfg1.N) (q : Fin 128) :
    Gen.iblk1 (F := Ideal) V c 6 t (ix2 0 q) = (V c main_v54 : S1x128.Idx → EReal) (ix2 0 q) := by
  have e := idx1 t
  show (V c main_v54 : S1x128.Idx → EReal) (((cfg1.win 6).blk t).view.emb (ix2 0 q)) = _
  refine congrArg (V c main_v54 : S1x128.Idx → EReal) (funext fun a => Fin.ext ?_)
  match a with
  | ⟨0, _⟩ => show win1_6.index t (0 : Fin 2) * 1 + 1 * 0 = 0; omega
  | ⟨1, _⟩ => show win1_6.index t (1 : Fin 2) * 128 + 1 * q.val = q.val; omega

/-- The layer's result as one array: row r from row r of the three row arrays and the whole weight arrays. -/
abbrev G1 (c : Dev nD) : S100000x128.Idx → EReal := fun i =>
  Cert.Net.rgcnRow (N := 100000) (V c main_v10) (V c main_v33) (V c main_v49) (V c main_arg11) (V c main_v51) (V c main_v53) (V c main_v54) (i 0) (i 1)

set_option maxHeartbeats 400000 in
/-- What point t writes back is block t of that array. -/
theorem flushed1_eq (c : Dev nD) (t : Fin cfg1.N) :
    (Gen.dat1 (F := Ideal) V c).flushed 7 t = ((cfg1.win 7).blk t).view.read (Elt Ideal) (G1 V c) := by
  show (cfg1.win 7).cut (grid1.coords t) ((Gen.dat1 V c).after 7 t) = _
  rw [Gen.after1_7, out1_eq]
  have e := idx1 t
  funext y
  obtain ⟨p, q, rfl⟩ : ∃ (p : Fin 2000) (q : Fin 128), y = ix2 p q := ⟨y 0, y 1, eq_ix2 y⟩
  have hemb : ((cfg1.win 7).blk t).view.emb (ix2 p q) = (ix2 (rowOf1 t p) q : S100000x128.Idx) := funext fun a => Fin.ext (by
    match a with
    | ⟨0, _⟩ => show win1_7.index t (0 : Fin 2) * 2000 + 1 * p.val = t.val * 2000 + p.val; omega
    | ⟨1, _⟩ => show win1_7.index t (1 : Fin 2) * 128 + 1 * q.val = q.val; omega)
  show Cert.Net.rgcnRow (N := 2000) (Gen.iblk1 V c 0 t) (Gen.iblk1 V c 1 t) (Gen.iblk1 V c 2 t) (Gen.iblk1 V c 3 t) (Gen.iblk1 V c 4 t) (Gen.iblk1 V c 5 t) (Gen.iblk1 V c 6 t) p q
    = G1 V c (((cfg1.win 7).blk t).view.emb (ix2 p q))
  rw [hemb]
  show _ = Cert.Net.rgcnRow (N := 100000) (V c main_v10) (V c main_v33) (V c main_v49) (V c main_arg11) (V c main_v51) (V c main_v53) (V c main_v54) (rowOf1 t p) q
  unfold Cert.Net.rgcnRow
  simp only [blk1_0 V c t, blk1_1 V c t, blk1_2 V c t, blk1_3 V c t, blk1_4 V c t, blk1_5 V c t, blk1_6 V c t]

/-- An index of the array is in point t's block iff each coordinate is in the block's range on its axis. -/
theorem mem_blk1 (t : Fin cfg1.N) (i : S100000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v55).slice (win1_7.rect t)).set ↔ _
  rw [View.set_slice_whole, Rect.mem_set_unit]
  exact Iff.rfl

/-- Row r is in the block of point r / 2000. -/
theorem cover1 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have ht : (i 0).val / 2000 < cfg1.N := by show _ < 50; omega
  obtain ⟨-, -, -, -, -, -, -, -, -, -, -, -, -, -, e70, e71⟩ := idx1 ⟨(i 0).val / 2000, ht⟩
  have e70' : win1_7.index ⟨(i 0).val / 2000, ht⟩ (0 : Fin 2) = (i 0).val / 2000 := e70
  refine ⟨⟨(i 0).val / 2000, ht⟩, flush1_7 _, ?_⟩
  rw [mem_blk1]
  intro a
  match a with
  | ⟨0, _⟩ => show win1_7.index ⟨(i 0).val / 2000, ht⟩ (0 : Fin 2) * 2000 ≤ (i 0).val ∧ (i 0).val < win1_7.index ⟨(i 0).val / 2000, ht⟩ (0 : Fin 2) * 2000 + 2000; omega
  | ⟨1, _⟩ => show win1_7.index ⟨(i 0).val / 2000, ht⟩ (1 : Fin 2) * 128 ≤ (i 1).val ∧ (i 1).val < win1_7.index ⟨(i 0).val / 2000, ht⟩ (1 : Fin 2) * 128 + 128; omega

/-- The array after the region: the relational layer of the arrays the region found, row by row. -/
theorem final1 (c : Dev nD) :
    (Gen.dat1 (F := Ideal) V c).arrAt 7 cfg1.N = fun i => Cert.Net.rgcnRow (N := 100000) (V c main_v10) (V c main_v33) (V c main_v49) (V c main_arg11) (V c main_v51) (V c main_v53) (V c main_v54) (i 0) (i 1) :=
  (Gen.dat1 (F := Ideal) V c).arrAt_eq_of_cover 7 (G1 V c) (fun t _ => flushed1_eq V c t) cover1

end Cert.KernelIdeal.RegionValue

end
-- ==== Proof.RegionCls.lean ====
/-
  The second relational graph layer fused with the classifier, read off the pipeline: each of the 50 grid points
  writes back 2000 rows of the [100000, 128] result, and row r of the block at point t is row t · 2000 + r of the
  array. A row of the result is the layer's row (root map, two relations' maps, bias) contracted over its 128
  features with the classifier's map, plus the classifier's bias; every product into a zero accumulator is the plain
  sum of products and a change of float format is the identity on the extended reals.
-/
import proofs.«150732_j39487929319593_2_alg».proof.Proof.Gen.KernelIdeal.Frame
import proofs.«150732_j39487929319593_2_alg».proof.Proof.Spec
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

theorem d128_lhs0_c (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem d128_lhs1_c (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem d128_rhs0_c (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem d128_rhs1_c (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 by 128×128 product into the zero accumulator, at row p and column q: the sum over the 128 shared
    features of the products. -/
theorem mm128_c {φ₁ φ₂ : FTy} (a : FVec Ideal S2000x128 φ₁) (b : FVec Ideal S128x128 φ₂) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact d128_lhs0_c _ _
    | ⟨1, _⟩ => exact (d128_lhs1_c _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (d128_rhs0_c _ _).trans hk
    | ⟨1, _⟩ => exact d128_rhs1_c _ _)
  rw [el, er]

/-- The bias row broadcast down the 2000 rows reads the bias at the column. -/
theorem bcast128_c {α : Type} (x : S1x128.Idx → α) (p : Fin 2000) (q : Fin 128) :
    broadcastTo S2000x128 x broadcasts_S1x128_S2000x128 (ix2 p q) = x (ix2 0 q) :=
  broadcastTo_apply x broadcasts_S1x128_S2000x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

set_option maxHeartbeats 400000 in
theorem pay1_c (v0 v3 v6 : Vec Ideal S2000x128 .f32) (v9 v11 v14 : Vec Ideal S128x128 .f32) (v22 : Vec Ideal S1x128 .f32) (p : Fin 2000) (q : Fin 128) :
    Gen.k1_pay1 (F := Ideal) v0 v3 v6 v9 v11 v14 v22 (ix2 p q) = Cert.Net.rgcnRow (N := 2000) v0 v3 v6 v9 v11 v14 v22 p q := by
  unfold Gen.k1_pay1 Cert.Net.rgcnRow
  simp only [shapeCast_self]
  rw [addf_apply, addf_apply, addf_apply, mm128_c, mm128_c, mm128_c, bcast128_c]
  rfl

set_option maxHeartbeats 400000 in
/-- The fused body: the layer's row through the classifier's map, plus the classifier's bias. -/
theorem cls_pay (v0 v3 v6 : Vec Ideal S2000x128 .f32) (v9 v11 v14 : Vec Ideal S128x128 .f32) (v22 : Vec Ideal S1x128 .f32) (v26 : Vec Ideal S128x128 .f32) (v30 : Vec Ideal S1x128 .f32) (p : Fin 2000) (q : Fin 128) :
    Gen.k2_pay1 (F := Ideal) v0 v3 v6 v9 v11 v14 v22 v26 v30 (ix2 p q) = Cert.Net.clsRow (N := 2000) v0 v3 v6 v9 v11 v14 v22 v26 v30 p q := by
  have h : Gen.k2_pay1 (F := Ideal) v0 v3 v6 v9 v11 v14 v22 v26 v30
      = addf (matmul dot_S2000x128_S128x128_S2000x128_1_0_0_1_n_n none (truncf .bf16 (Gen.k1_pay1 (F := Ideal) v0 v3 v6 v9 v11 v14 v22) bitsLt_bf16_f32) (truncf .bf16 v26 bitsLt_bf16_f32) (constant (F := Ideal) S2000x128 .f32 0x00000000#32))
          (broadcastTo S2000x128 (shapeCast S1x128 v30 shapeCasts_S1x128_S1x128) broadcasts_S1x128_S2000x128) := rfl
  rw [h, addf_apply, mm128_c, shapeCast_self, bcast128_c]
  unfold Cert.Net.clsRow
  simp only [truncf_apply, pay1_c]

/-- What the body leaves in the output block, row by row. -/
theorem out2_eq (x0 x1 x2 : Vec Ideal S2000x128 .f32) (x3 x4 x5 : Vec Ideal S128x128 .f32) (x6 : Vec Ideal S1x128 .f32) (x7 : Vec Ideal S128x128 .f32) (x8 : Vec Ideal S1x128 .f32) :
    Gen.out2_9 (F := Ideal) x0 x1 x2 x3 x4 x5 x6 x7 x8 = fun y => Cert.Net.clsRow (N := 2000) x0 x1 x2 x3 x4 x5 x6 x7 x8 (y 0) (y 1) := by
  have hz : (![0, 0] : Fin 2 → Nat) = fun _ => 0 := funext fun a => by fin_cases a <;> rfl
  unfold Gen.out2_9
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  exact cls_pay x0 x1 x2 x3 x4 x5 x6 x7 x8 p q

variable (V : (c : Dev nD) → (b : Ref sig .tc) → Buf (Elt Ideal) ((c : Thread nD τ).loc b))

/-- The printed index maps over the 50 points: a row-tiled window's block index is the point on the rows and 0 on the
    columns; a whole-array window's is 0 on both. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Row p of point t's block is row t · 2000 + p of the array. -/
abbrev rowOf2 (t : Fin cfg2.N) (p : Fin 2000) : Fin 100000 := ⟨t.val * 2000 + p.val, by have ht : t.val < 50 := t.isLt; have := p.isLt; omega⟩

set_option maxHeartbeats 400000 in
theorem blk2_0 (c : Dev nD) (t : Fin cfg2.N) (p : Fin 2000) (k : Fin 128) :
    Gen.iblk2 (F := Ideal) V c 0 t (ix2 p k) = (V c main_v55 : S100000x128.Idx → EReal) (ix2 (rowOf2 t p) k) := by
  have e := idx2 t
  show (V c main_v55 : S100000x128.Idx → EReal) (((cfg2.win 0).blk t).view.emb (ix2 p k)) = _
  refine congrArg (V c main_v55 : S100000x128.Idx → EReal) (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * k.val = k.val; omega

set_option maxHeartbeats 400000 in
theorem blk2_1 (c : Dev nD) (t : Fin cfg2.N) (p : Fin 2000) (k : Fin 128) :
    Gen.iblk2 (F := Ideal) V c 1 t (ix2 p k) = (V c main_v78 : S100000x128.Idx → EReal) (ix2 (rowOf2 t p) k) := by
  have e := idx2 t
  show (V c main_v78 : S100000x128.Idx → EReal) (((cfg2.win 1).blk t).view.emb (ix2 p k)) = _
  refine congrArg (V c main_v78 : S100000x128.Idx → EReal) (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * k.val = k.val; omega

set_option maxHeartbeats 400000 in
theorem blk2_2 (c : Dev nD) (t : Fin cfg2.N) (p : Fin 2000) (k : Fin 128) :
    Gen.iblk2 (F := Ideal) V c 2 t (ix2 p k) = (V c main_v94 : S100000x128.Idx → EReal) (ix2 (rowOf2 t p) k) := by
  have e := idx2 t
  show (V c main_v94 : S100000x128.Idx → EReal) (((cfg2.win 2).blk t).view.emb (ix2 p k)) = _
  refine congrArg (V c main_v94 : S100000x128.Idx → EReal) (funext fun a => Fin.ext ?_)
  match a with
  | ⟨0, _⟩ => show win2_2.index t (0 : Fin 2) * 2000 + 1 * p.val = t.val * 2000 + p.val; omega
  | ⟨1, _⟩ => show win2_2.index t (1 : Fin 2) * 128 + 1 * k.val = k.val; omega

set_option maxHeartbeats 400000 in
theorem blk2_3 (c : Dev nD) (t : Fin cfg2.N) (k : Fin 128) (q : Fin 128) :
    Gen.iblk2 (F := Ideal) V c 3 t (ix2 k q) = (V c main_arg14 : S128x128.Idx → EReal) (ix2 k q) := by
  have e := idx2 t
  show (V c main_arg14 : S128x128.Idx → EReal) (((cfg2.win 3).blk t).view.emb (ix2 k q)) = _
  refine congrArg (V c main_arg14 : S128x128.Idx → EReal) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

set_option maxHeartbeats 400000 in
theorem blk2_4 (c : Dev nD) (t : Fin cfg2.N) (k : Fin 128) (q : Fin 128) :
    Gen.iblk2 (F := Ideal) V c 4 t (ix2 k q) = (V c main_v96 : S128x128.Idx → EReal) (ix2 k q) := by
  have e := idx2 t
  show (V c main_v96 : S128x128.Idx → EReal) (((cfg2.win 4).blk t).view.emb (ix2 k q)) = _
  refine congrArg (V c main_v96 : S128x128.Idx → EReal) (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

set_option maxHeartbeats 400000 in
theorem blk2_5 (c : Dev nD) (t : Fin cfg2.N) (k : Fin 128) (q : Fin 128) :
    Gen.iblk2 (F := Ideal) V c 5 t (ix2 k q) = (V c main_v98 : S128x128.Idx → EReal) (ix2 k q) := by
  have e := idx2 t
  show (V c main_v98 : S128x128.Idx → EReal) (((cfg2.win 5).blk t).view.emb (ix2 k q)) = _
  refine congrArg (V c main_v98 : S128x128.Idx → EReal) (funext fun a => Fin.ext ?_)
  match a with
  | ⟨0, _⟩ => show win2_5.index t (0 : Fin 2) * 128 + 1 * k.val = k.val; omega
  | ⟨1, _⟩ => show win2_5.index t (1 : Fin 2) * 128 + 1 * q.val = q.val; omega

set_option maxHeartbeats 400000 in
theorem blk2_6 (c : Dev nD) (t : Fin cfg2.N) (q : Fin 128) :
    Gen.iblk2 (F := Ideal) V c 6 t (ix2 0 q) = (V c main_v99 : S1x128.Idx → EReal) (ix2 0 q) := by
  have e := idx2 t
  show (V c main_v99 : S1x128.Idx → EReal) (((cfg2.win 6).blk t).view.emb (ix2 0 q)) = _
  refine congrArg (V c main_v99 : S1x128.Idx → EReal) (funext fun a => Fin.ext ?_)
  match a with
  | ⟨0, _⟩ => show win2_6.index t (0 : Fin 2) * 1 + 1 * 0 = 0; omega
  | ⟨1, _⟩ => show win2_6.index t (1 : Fin 2) * 128 + 1 * q.val = q.val; omega

set_option maxHeartbeats 400000 in
theorem blk2_7 (c : Dev nD) (t : Fin cfg2.N) (k : Fin 128) (q : Fin 128) :
    Gen.iblk2 (F := Ideal) V c 7 t (ix2 k q) = (V c main_arg16 : S128x128.Idx → EReal) (ix2 k q) := by
  have e := idx2 t
  show (V c main_arg16 : S128x128.Idx → EReal) (((cfg2.win 7).blk t).view.emb (ix2 k q)) = _
  refine congrArg (V c main_arg16 : S128x128.Idx → EReal) (funext fun a => Fin.ext ?_)
  match a with
  | ⟨0, _⟩ => show win2_7.index t (0 : Fin 2) * 128 + 1 * k.val = k.val; omega
  | ⟨1, _⟩ => show win2_7.index t (1 : Fin 2) * 128 + 1 * q.val = q.val; omega

set_option maxHeartbeats 400000 in
theorem blk2_8 (c : Dev nD) (t : Fin cfg2.N) (q : Fin 128) :
    Gen.iblk2 (F := Ideal) V c 8 t (ix2 0 q) = (V c main_v100 : S1x128.Idx → EReal) (ix2 0 q) := by
  have e := idx2 t
  show (V c main_v100 : S1x128.Idx → EReal) (((cfg2.win 8).blk t).view.emb (ix2 0 q)) = _
  refine congrArg (V c main_v100 : S1x128.Idx → EReal) (funext fun a => Fin.ext ?_)
  match a with
  | ⟨0, _⟩ => show win2_8.index t (0 : Fin 2) * 1 + 1 * 0 = 0; omega
  | ⟨1, _⟩ => show win2_8.index t (1 : Fin 2) * 128 + 1 * q.val = q.val; omega

/-- The second layer and the classifier as one array: row r from row r of the three row arrays and the whole weight arrays. -/
abbrev G2 (c : Dev nD) : S100000x128.Idx → EReal := fun i =>
  Cert.Net.clsRow (N := 100000) (V c main_v55) (V c main_v78) (V c main_v94) (V c main_arg14) (V c main_v96) (V c main_v98) (V c main_v99) (V c main_arg16) (V c main_v100) (i 0) (i 1)

set_option maxHeartbeats 400000 in
/-- What point t writes back is block t of that array. -/
theorem flushed2_eq (c : Dev nD) (t : Fin cfg2.N) :
    (Gen.dat2 (F := Ideal) V c).flushed 9 t = ((cfg2.win 9).blk t).view.read (Elt Ideal) (G2 V c) := by
  show (cfg2.win 9).cut (grid2.coords t) ((Gen.dat2 V c).after 9 t) = _
  rw [Gen.after2_9, out2_eq]
  have e := idx2 t
  funext y
  obtain ⟨p, q, rfl⟩ : ∃ (p : Fin 2000) (q : Fin 128), y = ix2 p q := ⟨y 0, y 1, eq_ix2 y⟩
  have hemb : ((cfg2.win 9).blk t).view.emb (ix2 p q) = (ix2 (rowOf2 t p) q : S100000x128.Idx) := funext fun a => Fin.ext (by
    match a with
    | ⟨0, _⟩ => show win2_9.index t (0 : Fin 2) * 2000 + 1 * p.val = t.val * 2000 + p.val; omega
    | ⟨1, _⟩ => show win2_9.index t (1 : Fin 2) * 128 + 1 * q.val = q.val; omega)
  show Cert.Net.clsRow (N := 2000) (Gen.iblk2 V c 0 t) (Gen.iblk2 V c 1 t) (Gen.iblk2 V c 2 t) (Gen.iblk2 V c 3 t) (Gen.iblk2 V c 4 t) (Gen.iblk2 V c 5 t) (Gen.iblk2 V c 6 t) (Gen.iblk2 V c 7 t) (Gen.iblk2 V c 8 t) p q
    = G2 V c (((cfg2.win 9).blk t).view.emb (ix2 p q))
  rw [hemb]
  show _ = Cert.Net.clsRow (N := 100000) (V c main_v55) (V c main_v78) (V c main_v94) (V c main_arg14) (V c main_v96) (V c main_v98) (V c main_v99) (V c main_arg16) (V c main_v100) (rowOf2 t p) q
  unfold Cert.Net.clsRow Cert.Net.rgcnRow
  simp only [blk2_0 V c t, blk2_1 V c t, blk2_2 V c t, blk2_3 V c t, blk2_4 V c t, blk2_5 V c t, blk2_6 V c t, blk2_7 V c t, blk2_8 V c t]

/-- An index of the array is in point t's block iff each coordinate is in the block's range on its axis. -/
theorem mem_blk2 (t : Fin cfg2.N) (i : S100000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v101).slice (win2_9.rect t)).set ↔ _
  rw [View.set_slice_whole, Rect.mem_set_unit]
  exact Iff.rfl

/-- Row r is in the block of point r / 2000. -/
theorem cover2 (i : S100000x128.Idx) : ∃ t : Fin cfg2.N, (cfg2.win 9).flush t = true ∧ i ∈ ((cfg2.win 9).blk t).view.set := by
  have hi0 : (i 0).val < 100000 := (i 0).isLt
  have hi1 : (i 1).val < 128 := (i 1).isLt
  have ht : (i 0).val / 2000 < cfg2.N := by show _ < 50; omega
  obtain ⟨-, -, -, -, -, -, -, -, -, -, -, -, -, -, -, -, -, -, e0, e1⟩ := idx2 ⟨(i 0).val / 2000, ht⟩
  have e0' : win2_9.index ⟨(i 0).val / 2000, ht⟩ (0 : Fin 2) = (i 0).val / 2000 := e0
  refine ⟨⟨(i 0).val / 2000, ht⟩, flush2_9 _, ?_⟩
  rw [mem_blk2]
  intro a
  match a with
  | ⟨0, _⟩ => show win2_9.index ⟨(i 0).val / 2000, ht⟩ (0 : Fin 2) * 2000 ≤ (i 0).val ∧ (i 0).val < win2_9.index ⟨(i 0).val / 2000, ht⟩ (0 : Fin 2) * 2000 + 2000; omega
  | ⟨1, _⟩ => show win2_9.index ⟨(i 0).val / 2000, ht⟩ (1 : Fin 2) * 128 ≤ (i 1).val ∧ (i 1).val < win2_9.index ⟨(i 0).val / 2000, ht⟩ (1 : Fin 2) * 128 + 128; omega

/-- The array after the region: the second layer followed by the classifier, of the arrays the region found, row by row. -/
theorem final2 (c : Dev nD) :
    (Gen.dat2 (F := Ideal) V c).arrAt 9 cfg2.N = fun i => Cert.Net.clsRow (N := 100000) (V c main_v55) (V c main_v78) (V c main_v94) (V c main_arg14) (V c main_v96) (V c main_v98) (V c main_v99) (V c main_arg16) (V c main_v100) (i 0) (i 1) :=
  (Gen.dat2 (F := Ideal) V c).arrAt_eq_of_cover 9 (G2 V c) (fun t _ => flushed2_eq V c t) cover2

end Cert.KernelIdeal.RegionValue

end
-- ==== Proof.MeanDef.lean ====
/-
  The mean of a node's in-neighbours' rows, one relation at a time, as both programs' host code computes it.

  For an edge list with endpoints `src`, `dst` (one entry per edge) and edge types `et`: the rows of the node
  features `H` at the edges' sources are gathered (a negative index first wrapped by the number of nodes), each
  gathered row is multiplied by 1 where the edge has the relation `rel` and by 0 elsewhere, the products are summed
  into the rows of the edges' destinations, and each row of sums is divided by the number of edges of that relation
  arriving at the node, or by 1 where none arrives. The kernel program and the reference spell this with the very
  same host operations, so it is kept as ONE function of `H` and never opened: all that is used of it is that equal
  node features give equal means.
-/
import proofs.«150732_j39487929319593_2_alg».proof.Proof.Gen.KernelIdeal
import Idealize.ShloMosaic.PureOps.Ideal

noncomputable section

namespace Cert.KernelIdeal.Mean

open Idealize.ShloMosaic
open Cert.KernelIdeal Cert.KernelIdeal.Gen

/-- The per-relation mean of in-neighbours' rows (see the header). -/
def meanOver (rel : BitVec 32) (H : FVec Ideal S100000x128 .f32)
    (src dst et : IVec S1600000 32) : FVec Ideal S100000x128 .f32 :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (mulf
        (Host.gather gather_S100000x128_S1600000x1_S1600000x128_1_0_n_n_0_1_1128 H
          (broadcastInDim S1600000x1 ![0] bcast_S1600000_S1600000x1_0
            (select
              (cmpi .slt src (broadcastInDim S1600000 ![] bcast_S_S1600000 (constantI S_ 32 0#32)))
              (addi src (broadcastInDim S1600000 ![] bcast_S_S1600000 (constantI S_ 32 100000#32)))
              src)))
        (broadcastInDim S1600000x128 ![0, 1] bcast_S1600000x1_S1600000x128_0_1
          (broadcastInDim S1600000x1 ![0] bcast_S1600000_S1600000x1_0
            (uitofp (F := Ideal) .f32 (cmpi .eq et (broadcastInDim S1600000 ![] bcast_S_S1600000 (constantI S_ 32 rel))))))))
    (broadcastInDim S100000x128 ![0, 1] bcast_S100000x1_S100000x128_0_1
      (broadcastInDim S100000x1 ![0] bcast_S100000_S100000x1_0
        (maximumf
          (broadcastInDim S100000 ![] bcast_S_S100000 (id (constant (F := Ideal) S_ .f32 0x3F800000#32)))
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (uitofp (F := Ideal) .f32 (cmpi .eq et (broadcastInDim S1600000 ![] bcast_S_S1600000 (constantI S_ 32 rel))))))))

/-- The edges' sources: row 0 of the edge list, as a vector. -/
def edgeRow0 (ei : IVec S2x1600000 32) : IVec S1600000 32 :=
  shapeCast S1600000 (extractStridedSlice S1x1600000 ![0, 0] ei slices_S2x1600000_S1x1600000_0_0) shapeCasts_S1x1600000_S1600000

/-- The edges' destinations: row 1 of the edge list, as a vector. -/
def edgeRow1 (ei : IVec S2x1600000 32) : IVec S1600000 32 :=
  shapeCast S1600000 (extractStridedSlice S1x1600000 ![1, 0] ei slices_S2x1600000_S1x1600000_1_0) shapeCasts_S1x1600000_S1600000

end Cert.KernelIdeal.Mean

end
-- ==== Proof.Net.lean ====
/-
  The whole network as one function of the eighteen arguments.

  The encoder gives every node 128 features; a relational graph layer replaces them by the root map of the node's
  own features plus, per relation, that relation's map of the mean of its in-neighbours' features, plus a bias; a
  second such layer is followed by the classifier. The means are the host code's (kept opaque); everything else is
  the row functions of the specification applied to every row.
-/
import proofs.«150732_j39487929319593_2_alg».proof.Proof.Spec
import proofs.«150732_j39487929319593_2_alg».proof.Proof.MeanDef

noncomputable section

namespace Cert.Net

open Idealize.ShloMosaic Idealize.ShloMosaic.ValueIdx Cert.KernelIdeal.Mean

/-- The pair of relation matrices. -/
abbrev Rel : Type := (⟨3, ![2, 128, 128]⟩ : Shape).Idx → EReal

/-- Every node's encoded features. -/
def encNet (x : Mat 100000 8) (Wn : Mat 5 64) (bn : Vct 64) (Wc : Mat 3 64) (bc : Vct 64) (Wi : Mat 128 128) (bi a : Vct 128) :
    Mat 100000 128 :=
  fun i => encRow x Wn (rowOf bn) Wc (rowOf bc) (topHalf Wi) (botHalf Wi) (rowOf bi) (rowOf a) (i 0) (i 1)

/-- One relational graph layer over all nodes, given the two relations' means. -/
def layerNet (H M0 M1 : Mat 100000 128) (Wr : Mat 128 128) (Wrel : Rel) (b : Vct 128) : Mat 100000 128 :=
  fun i => rgcnRow H M0 M1 Wr (relMat 0 Wrel) (relMat 1 Wrel) (rowOf b) (i 0) (i 1)

/-- The second layer followed by the classifier, over all nodes. -/
def clsNet (H M0 M1 : Mat 100000 128) (Wr : Mat 128 128) (Wrel : Rel) (b : Vct 128) (Wc : Mat 128 128) (bc : Vct 128) :
    Mat 100000 128 :=
  fun i => clsRow H M0 M1 Wr (relMat 0 Wrel) (relMat 1 Wrel) (rowOf b) Wc (rowOf bc) (i 0) (i 1)

/-- The node features after the first layer. -/
def hidden1 (x0 : Mat 100000 8) (x1 : IVec Cert.KernelIdeal.S2x1600000 32) (x2 : IVec Cert.KernelIdeal.S1600000 32)
    (x3 : Mat 5 64) (x4 : Vct 64) (x5 : Mat 3 64) (x6 : Vct 64) (x7 : Mat 128 128) (x8 x9 : Vct 128)
    (x10 : Rel) (x11 : Mat 128 128) (x12 : Vct 128) : Mat 100000 128 :=
  layerNet (encNet x0 x3 x4 x5 x6 x7 x8 x9)
    (meanOver 0#32 (encNet x0 x3 x4 x5 x6 x7 x8 x9) (edgeRow0 x1) (edgeRow1 x1) x2)
    (meanOver 1#32 (encNet x0 x3 x4 x5 x6 x7 x8 x9) (edgeRow0 x1) (edgeRow1 x1) x2)
    x11 x10 x12

/-- The network's result. -/
def net (x0 : Mat 100000 8) (x1 : IVec Cert.KernelIdeal.S2x1600000 32) (x2 : IVec Cert.KernelIdeal.S1600000 32)
    (x3 : Mat 5 64) (x4 : Vct 64) (x5 : Mat 3 64) (x6 : Vct 64) (x7 : Mat 128 128) (x8 x9 : Vct 128)
    (x10 : Rel) (x11 : Mat 128 128) (x12 : Vct 128) (x13 : Rel) (x14 : Mat 128 128) (x15 : Vct 128)
    (x16 : Mat 128 128) (x17 : Vct 128) : Mat 100000 128 :=
  clsNet (hidden1 x0 x1 x2 x3 x4 x5 x6 x7 x8 x9 x10 x11 x12)
    (meanOver 0#32 (hidden1 x0 x1 x2 x3 x4 x5 x6 x7 x8 x9 x10 x11 x12) (edgeRow0 x1) (edgeRow1 x1) x2)
    (meanOver 1#32 (hidden1 x0 x1 x2 x3 x4 x5 x6 x7 x8 x9 x10 x11 x12) (edgeRow0 x1) (edgeRow1 x1) x2)
    x14 x13 x15 x16 x17

end Cert.Net

end
-- ==== Proof.Stretch1.lean ====
/-
  The host operations between the first and the second region, read from any contents `W` of the buffers.

  They compute, for each of the two relations, the mean of every node's in-neighbours' rows of the first region's
  result (the function `meanOver`), cut the pair of relation matrices into its two matrices and turn the layer's
  bias vector into a one-row array. The first region's result, the edge list's rows, the edge types and the
  arguments read later are not written.

  The degree's clamp is a call of a module-local function, printed over typed references; its three operations are
  first rewritten with the plain builders (the same functions of the same buffers), so that reading the stretches
  never leaves a transport around a large term.
-/
import proofs.«150732_j39487929319593_2_alg».proof.Proof.Gen.KernelIdeal.Launch
import proofs.«150732_j39487929319593_2_alg».proof.Proof.Net
import Idealize.ShloMosaic.Lib.StableHlo.Run
import Idealize.ShloMosaic.Lib.Pipeline.Value
import Idealize.ShloMosaic.Lib.ValueLayout
import proofs.«150732_j39487929319593_2_alg».proof.Proof.MeanDef

set_option maxRecDepth 65536

noncomputable section

namespace Cert.KernelIdeal.Stretch1

open Idealize.ShloMosaic Idealize.ShloMosaic.TcCoe Idealize.SL.Sem Idealize.ShloMosaic.StableHlo Idealize.ShloMosaic.ValueIdx
open Cert.KernelIdeal Cert.KernelIdeal.Gen Cert.Net Cert.KernelIdeal.Mean

variable (W : Valuation τ sig (Elt Ideal))

set_option maxHeartbeats 400000 in
/-- The three operations of the degree's clamp (a scalar one, spread over the nodes, the larger of it and the
    degree), written with the plain builders. -/
theorem hostOps1_1_plain : (hostOps1_1 (F := Ideal)) =
    [ StableHlo.unary main_cst_3 main_call0_v0 (id : (⟨S_, .f32⟩ : BufTy).Contents (Elt Ideal) → (⟨S_, .f32⟩ : BufTy).Contents (Elt Ideal)),
      StableHlo.unary main_call0_v0 main_call0_v1 (broadcastInDim S100000 ![] bcast_S_S100000 : (⟨S_, .f32⟩ : BufTy).Contents (Elt Ideal) → (⟨S100000, .f32⟩ : BufTy).Contents (Elt Ideal)),
      StableHlo.binary main_call0_v1 main_v29 main_v30 (maximumf (F := Ideal) (s := S100000) (φ := .f32) : (⟨S100000, .f32⟩ : BufTy).Contents (Elt Ideal) → (⟨S100000, .f32⟩ : BufTy).Contents (Elt Ideal) → (⟨S100000, .f32⟩ : BufTy).Contents (Elt Ideal)) ] := rfl

set_option maxHeartbeats 400000 in
/-- The three operations of the degree's clamp (a scalar one, spread over the nodes, the larger of it and the
    degree), written with the plain builders. -/
theorem hostOps1_3_plain : (hostOps1_3 (F := Ideal)) =
    [ StableHlo.unary main_cst_7 main_call1_v0 (id : (⟨S_, .f32⟩ : BufTy).Contents (Elt Ideal) → (⟨S_, .f32⟩ : BufTy).Contents (Elt Ideal)),
      StableHlo.unary main_call1_v0 main_call1_v1 (broadcastInDim S100000 ![] bcast_S_S100000 : (⟨S_, .f32⟩ : BufTy).Contents (Elt Ideal) → (⟨S100000, .f32⟩ : BufTy).Contents (Elt Ideal)),
      StableHlo.binary main_call1_v1 main_v45 main_v46 (maximumf (F := Ideal) (s := S100000) (φ := .f32) : (⟨S100000, .f32⟩ : BufTy).Contents (Elt Ideal) → (⟨S100000, .f32⟩ : BufTy).Contents (Elt Ideal) → (⟨S100000, .f32⟩ : BufTy).Contents (Elt Ideal)) ] := rfl

/-- What the five stretches leave, from contents `W`. -/
abbrev after1 : Valuation τ sig (Elt Ideal) :=
  StableHlo.after hostOps1_4 (StableHlo.after hostOps1_3 (StableHlo.after hostOps1_2 (StableHlo.after hostOps1_1 (StableHlo.after hostOps1 W))))

/-! ## Buffers the stretches leave alone -/

set_option maxHeartbeats 2000000 in
theorem after1_v10 : after1 W (Proc.devRef .tc main_v10) = W (Proc.devRef .tc main_v10) := by
  dsimp only [after1]
  rw [hostOps1_1_plain, hostOps1_3_plain]
  dsimp only [hostOps1, hostOps1_2, hostOps1_4]
  after_results_simp

set_option maxHeartbeats 2000000 in
theorem after1_arg11 : after1 W (Proc.devRef .tc main_arg11) = W (Proc.devRef .tc main_arg11) := by
  dsimp only [after1]
  rw [hostOps1_1_plain, hostOps1_3_plain]
  dsimp only [hostOps1, hostOps1_2, hostOps1_4]
  after_results_simp

set_option maxHeartbeats 2000000 in
theorem after1_v1 : after1 W (Proc.devRef .tc main_v1) = W (Proc.devRef .tc main_v1) := by
  dsimp only [after1]
  rw [hostOps1_1_plain, hostOps1_3_plain]
  dsimp only [hostOps1, hostOps1_2, hostOps1_4]
  after_results_simp

set_option maxHeartbeats 2000000 in
theorem after1_v3 : after1 W (Proc.devRef .tc main_v3) = W (Proc.devRef .tc main_v3) := by
  dsimp only [after1]
  rw [hostOps1_1_plain, hostOps1_3_plain]
  dsimp only [hostOps1, hostOps1_2, hostOps1_4]
  after_results_simp

set_option maxHeartbeats 2000000 in
theorem after1_arg2 : after1 W (Proc.devRef .tc main_arg2) = W (Proc.devRef .tc main_arg2) := by
  dsimp only [after1]
  rw [hostOps1_1_plain, hostOps1_3_plain]
  dsimp only [hostOps1, hostOps1_2, hostOps1_4]
  after_results_simp

set_option maxHeartbeats 2000000 in
theorem after1_arg13 : after1 W (Proc.devRef .tc main_arg13) = W (Proc.devRef .tc main_arg13) := by
  dsimp only [after1]
  rw [hostOps1_1_plain, hostOps1_3_plain]
  dsimp only [hostOps1, hostOps1_2, hostOps1_4]
  after_results_simp

set_option maxHeartbeats 2000000 in
theorem after1_arg14 : after1 W (Proc.devRef .tc main_arg14) = W (Proc.devRef .tc main_arg14) := by
  dsimp only [after1]
  rw [hostOps1_1_plain, hostOps1_3_plain]
  dsimp only [hostOps1, hostOps1_2, hostOps1_4]
  after_results_simp

set_option maxHeartbeats 2000000 in
theorem after1_arg15 : after1 W (Proc.devRef .tc main_arg15) = W (Proc.devRef .tc main_arg15) := by
  dsimp only [after1]
  rw [hostOps1_1_plain, hostOps1_3_plain]
  dsimp only [hostOps1, hostOps1_2, hostOps1_4]
  after_results_simp

set_option maxHeartbeats 2000000 in
theorem after1_arg16 : after1 W (Proc.devRef .tc main_arg16) = W (Proc.devRef .tc main_arg16) := by
  dsimp only [after1]
  rw [hostOps1_1_plain, hostOps1_3_plain]
  dsimp only [hostOps1, hostOps1_2, hostOps1_4]
  after_results_simp

set_option maxHeartbeats 2000000 in
theorem after1_arg17 : after1 W (Proc.devRef .tc main_arg17) = W (Proc.devRef .tc main_arg17) := by
  dsimp only [after1]
  rw [hostOps1_1_plain, hostOps1_3_plain]
  dsimp only [hostOps1, hostOps1_2, hostOps1_4]
  after_results_simp

/-! ## The two relations' means of the node features -/

set_option maxHeartbeats 4000000 in
theorem after1_v33 : after1 W (Proc.devRef .tc main_v33)
    = meanOver 0#32 (W (Proc.devRef .tc main_v10)) (W (Proc.devRef .tc main_v1)) (W (Proc.devRef .tc main_v3)) (W (Proc.devRef .tc main_arg2)) := by
  dsimp only [after1]
  rw [hostOps1_1_plain, hostOps1_3_plain]
  dsimp only [hostOps1, hostOps1_2, hostOps1_4]
  after_results_simp
  unfold meanOver
  rfl

set_option maxHeartbeats 4000000 in
theorem after1_v49 : after1 W (Proc.devRef .tc main_v49)
    = meanOver 1#32 (W (Proc.devRef .tc main_v10)) (W (Proc.devRef .tc main_v1)) (W (Proc.devRef .tc main_v3)) (W (Proc.devRef .tc main_arg2)) := by
  dsimp only [after1]
  rw [hostOps1_1_plain, hostOps1_3_plain]
  dsimp only [hostOps1, hostOps1_2, hostOps1_4]
  after_results_simp
  unfold meanOver
  rfl

/-! ## The next region's weights -/

set_option maxHeartbeats 2000000 in
theorem after1_v51 : (after1 W (Proc.devRef .tc main_v51) : Mat 128 128) = relMat 0 (W (Proc.devRef .tc main_arg10) : Rel) := by
  dsimp only [after1]
  rw [hostOps1_1_plain, hostOps1_3_plain]
  dsimp only [hostOps1, hostOps1_2, hostOps1_4]
  after_results_simp
  funext i
  obtain ⟨a, b, rfl⟩ : ∃ (a b : Fin 128), i = ix2 a b := ⟨i 0, i 1, eq_ix2 i⟩
  refine (shapeCast_1ab_ab_apply _ _ a b).trans ?_
  exact extractStridedSlice_apply (s := S2x128x128) (t := S1x128x128) ![0, 0, 0] (W (Proc.devRef .tc main_arg10)) slices_S2x128x128_S1x128x128_0_0_0 (ix3 0 a b) (ix3 0 a b) (fun c => match c with
    | ⟨0, _⟩ => by show (0 : ℕ) = 0 + 0; rfl
    | ⟨1, _⟩ => by show a.val = 0 + a.val; omega
    | ⟨2, _⟩ => by show b.val = 0 + b.val; omega)

set_option maxHeartbeats 2000000 in
theorem after1_v53 : (after1 W (Proc.devRef .tc main_v53) : Mat 128 128) = relMat 1 (W (Proc.devRef .tc main_arg10) : Rel) := by
  dsimp only [after1]
  rw [hostOps1_1_plain, hostOps1_3_plain]
  dsimp only [hostOps1, hostOps1_2, hostOps1_4]
  after_results_simp
  funext i
  obtain ⟨a, b, rfl⟩ : ∃ (a b : Fin 128), i = ix2 a b := ⟨i 0, i 1, eq_ix2 i⟩
  refine (shapeCast_1ab_ab_apply _ _ a b).trans ?_
  exact extractStridedSlice_apply (s := S2x128x128) (t := S1x128x128) ![1, 0, 0] (W (Proc.devRef .tc main_arg10)) slices_S2x128x128_S1x128x128_1_0_0 (ix3 0 a b) (ix3 1 a b) (fun c => match c with
    | ⟨0, _⟩ => by show (1 : ℕ) = 1 + 0; rfl
    | ⟨1, _⟩ => by show a.val = 0 + a.val; omega
    | ⟨2, _⟩ => by show b.val = 0 + b.val; omega)

set_option maxHeartbeats 2000000 in
theorem after1_v54 : (after1 W (Proc.devRef .tc main_v54) : Mat 1 128) = rowOf (W (Proc.devRef .tc main_arg12) : Vct 128) := by
  dsimp only [after1]
  rw [hostOps1_1_plain, hostOps1_3_plain]
  dsimp only [hostOps1, hostOps1_2, hostOps1_4]
  after_results_simp
  funext i
  obtain ⟨u, k, rfl⟩ : ∃ (u : Fin 1) (k : Fin 128), i = ix2 u k := ⟨i 0, i 1, eq_ix2 i⟩
  exact shapeCast_a_1a_apply _ _ u k

end Cert.KernelIdeal.Stretch1

end
-- ==== Proof.Stretch2.lean ====
/-
  The host operations between the second and the third region, read from any contents `W` of the buffers.

  They compute, for each of the two relations, the mean of every node's in-neighbours' rows of the second region's
  result (the function `meanOver`), cut the second layer's pair of relation matrices into its two matrices, and turn
  the layer's and the classifier's bias vectors into one-row arrays. The second region's result and the arguments
  the third region reads are not written.

  The degree's clamp is a call of a module-local function, printed over typed references; its three operations are
  first rewritten with the plain builders (the same functions of the same buffers), so that reading the stretches
  never leaves a transport around a large term.
-/
import proofs.«150732_j39487929319593_2_alg».proof.Proof.Gen.KernelIdeal.Launch
import proofs.«150732_j39487929319593_2_alg».proof.Proof.Net
import Idealize.ShloMosaic.Lib.StableHlo.Run
import Idealize.ShloMosaic.Lib.Pipeline.Value
import Idealize.ShloMosaic.Lib.ValueLayout
import proofs.«150732_j39487929319593_2_alg».proof.Proof.MeanDef

set_option maxRecDepth 65536

noncomputable section

namespace Cert.KernelIdeal.Stretch2

open Idealize.ShloMosaic Idealize.ShloMosaic.TcCoe Idealize.SL.Sem Idealize.ShloMosaic.StableHlo Idealize.ShloMosaic.ValueIdx
open Cert.KernelIdeal Cert.KernelIdeal.Gen Cert.Net Cert.KernelIdeal.Mean

variable (W : Valuation τ sig (Elt Ideal))

/-- What the stretch leaves, from contents `W`. -/
abbrev after2 : Valuation τ sig (Elt Ideal) :=
  StableHlo.after hostOps2_4 (StableHlo.after hostOps2_3 (StableHlo.after hostOps2_2 (StableHlo.after hostOps2_1 (StableHlo.after hostOps2 W))))

/-! ## The two clamps of the edge counts, written with the plain builders -/

set_option maxHeartbeats 400000 in
/-- The three operations of the first relation's degree clamp (a scalar one, spread over the nodes, the larger of it
    and the degree), written with the plain builders. -/
theorem hostOps2_1_plain : (hostOps2_1 (F := Ideal)) =
    [ StableHlo.unary main_cst_13 main_call2_v0 (id : (⟨S_, .f32⟩ : BufTy).Contents (Elt Ideal) → (⟨S_, .f32⟩ : BufTy).Contents (Elt Ideal)),
      StableHlo.unary main_call2_v0 main_call2_v1 (broadcastInDim S100000 ![] bcast_S_S100000 : (⟨S_, .f32⟩ : BufTy).Contents (Elt Ideal) → (⟨S100000, .f32⟩ : BufTy).Contents (Elt Ideal)),
      StableHlo.binary main_call2_v1 main_v74 main_v75 (maximumf (F := Ideal) (s := S100000) (φ := .f32) : (⟨S100000, .f32⟩ : BufTy).Contents (Elt Ideal) → (⟨S100000, .f32⟩ : BufTy).Contents (Elt Ideal) → (⟨S100000, .f32⟩ : BufTy).Contents (Elt Ideal)) ] := rfl

set_option maxHeartbeats 400000 in
/-- The same three operations for the second relation's degree. -/
theorem hostOps2_3_plain : (hostOps2_3 (F := Ideal)) =
    [ StableHlo.unary main_cst_17 main_call3_v0 (id : (⟨S_, .f32⟩ : BufTy).Contents (Elt Ideal) → (⟨S_, .f32⟩ : BufTy).Contents (Elt Ideal)),
      StableHlo.unary main_call3_v0 main_call3_v1 (broadcastInDim S100000 ![] bcast_S_S100000 : (⟨S_, .f32⟩ : BufTy).Contents (Elt Ideal) → (⟨S100000, .f32⟩ : BufTy).Contents (Elt Ideal)),
      StableHlo.binary main_call3_v1 main_v90 main_v91 (maximumf (F := Ideal) (s := S100000) (φ := .f32) : (⟨S100000, .f32⟩ : BufTy).Contents (Elt Ideal) → (⟨S100000, .f32⟩ : BufTy).Contents (Elt Ideal) → (⟨S100000, .f32⟩ : BufTy).Contents (Elt Ideal)) ] := rfl

/-! ## Buffers the stretch leaves alone -/

theorem after2_v55 : after2 W (Proc.devRef .tc main_v55) = W (Proc.devRef .tc main_v55) := by
  dsimp only [after2]
  rw [hostOps2_1_plain, hostOps2_3_plain]
  dsimp only [hostOps2, hostOps2_2, hostOps2_4]
  after_results_simp

theorem after2_arg14 : after2 W (Proc.devRef .tc main_arg14) = W (Proc.devRef .tc main_arg14) := by
  dsimp only [after2]
  rw [hostOps2_1_plain, hostOps2_3_plain]
  dsimp only [hostOps2, hostOps2_2, hostOps2_4]
  after_results_simp

theorem after2_arg16 : after2 W (Proc.devRef .tc main_arg16) = W (Proc.devRef .tc main_arg16) := by
  dsimp only [after2]
  rw [hostOps2_1_plain, hostOps2_3_plain]
  dsimp only [hostOps2, hostOps2_2, hostOps2_4]
  after_results_simp

/-! ## The operands it prepares -/

theorem after2_v96 : (after2 W (Proc.devRef .tc main_v96) : Mat 128 128) = relMat 0 (W (Proc.devRef .tc main_arg13) : Rel) := by
  dsimp only [after2]
  rw [hostOps2_1_plain, hostOps2_3_plain]
  dsimp only [hostOps2, hostOps2_2, hostOps2_4]
  after_results_simp
  funext i
  obtain ⟨a, b, rfl⟩ : ∃ (a b : Fin 128), i = ix2 a b := ⟨i 0, i 1, eq_ix2 i⟩
  refine (shapeCast_1ab_ab_apply _ _ a b).trans ?_
  exact extractStridedSlice_apply (s := S2x128x128) (t := S1x128x128) ![0, 0, 0] (W (Proc.devRef .tc main_arg13)) slices_S2x128x128_S1x128x128_0_0_0 (ix3 0 a b) (ix3 0 a b) (fun c => match c with
    | ⟨0, _⟩ => by show 0 = 0 + 0; rfl
    | ⟨1, _⟩ => by show a.val = 0 + a.val; omega
    | ⟨2, _⟩ => by show b.val = 0 + b.val; omega)

theorem after2_v98 : (after2 W (Proc.devRef .tc main_v98) : Mat 128 128) = relMat 1 (W (Proc.devRef .tc main_arg13) : Rel) := by
  dsimp only [after2]
  rw [hostOps2_1_plain, hostOps2_3_plain]
  dsimp only [hostOps2, hostOps2_2, hostOps2_4]
  after_results_simp
  funext i
  obtain ⟨a, b, rfl⟩ : ∃ (a b : Fin 128), i = ix2 a b := ⟨i 0, i 1, eq_ix2 i⟩
  refine (shapeCast_1ab_ab_apply _ _ a b).trans ?_
  exact extractStridedSlice_apply (s := S2x128x128) (t := S1x128x128) ![1, 0, 0] (W (Proc.devRef .tc main_arg13)) slices_S2x128x128_S1x128x128_1_0_0 (ix3 0 a b) (ix3 1 a b) (fun c => match c with
    | ⟨0, _⟩ => by show 1 = 1 + 0; rfl
    | ⟨1, _⟩ => by show a.val = 0 + a.val; omega
    | ⟨2, _⟩ => by show b.val = 0 + b.val; omega)

theorem after2_v99 : (after2 W (Proc.devRef .tc main_v99) : Mat 1 128) = rowOf (W (Proc.devRef .tc main_arg15) : Vct 128) := by
  dsimp only [after2]
  rw [hostOps2_1_plain, hostOps2_3_plain]
  dsimp only [hostOps2, hostOps2_2, hostOps2_4]
  after_results_simp
  funext i
  obtain ⟨u, k, rfl⟩ : ∃ (u : Fin 1) (k : Fin 128), i = ix2 u k := ⟨i 0, i 1, eq_ix2 i⟩
  exact shapeCast_a_1a_apply _ _ u k

theorem after2_v100 : (after2 W (Proc.devRef .tc main_v100) : Mat 1 128) = rowOf (W (Proc.devRef .tc main_arg17) : Vct 128) := by
  dsimp only [after2]
  rw [hostOps2_1_plain, hostOps2_3_plain]
  dsimp only [hostOps2, hostOps2_2, hostOps2_4]
  after_results_simp
  funext i
  obtain ⟨u, k, rfl⟩ : ∃ (u : Fin 1) (k : Fin 128), i = ix2 u k := ⟨i 0, i 1, eq_ix2 i⟩
  exact shapeCast_a_1a_apply _ _ u k

/-! ## The two relations' means of the second layer's input -/

set_option maxHeartbeats 400000 in
theorem after2_v78 : after2 W (Proc.devRef .tc main_v78)
    = meanOver 0#32 (W (Proc.devRef .tc main_v55)) (W (Proc.devRef .tc main_v1)) (W (Proc.devRef .tc main_v3)) (W (Proc.devRef .tc main_arg2)) := by
  dsimp only [after2]
  rw [hostOps2_1_plain, hostOps2_3_plain]
  dsimp only [hostOps2, hostOps2_2, hostOps2_4]
  after_results_simp
  unfold meanOver
  rfl

set_option maxHeartbeats 400000 in
theorem after2_v94 : after2 W (Proc.devRef .tc main_v94)
    = meanOver 1#32 (W (Proc.devRef .tc main_v55)) (W (Proc.devRef .tc main_v1)) (W (Proc.devRef .tc main_v3)) (W (Proc.devRef .tc main_arg2)) := by
  dsimp only [after2]
  rw [hostOps2_1_plain, hostOps2_3_plain]
  dsimp only [hostOps2, hostOps2_2, hostOps2_4]
  after_results_simp
  unfold meanOver
  rfl

end Cert.KernelIdeal.Stretch2

end
-- ==== Proof.Stretch0.lean ====
/-
  The host operations ahead of the first region, read from any contents `W` of the buffers.

  They cut the edge list into its two rows (the edges' sources and destinations), turn each bias vector into a
  one-row array, and cut the input projection into its upper and lower 64 rows. No argument buffer is written.
-/
import proofs.«150732_j39487929319593_2_alg».proof.Proof.Gen.KernelIdeal.Launch
import proofs.«150732_j39487929319593_2_alg».proof.Proof.Spec
import proofs.«150732_j39487929319593_2_alg».proof.Proof.MeanDef
import Idealize.ShloMosaic.Lib.StableHlo.Run
import Idealize.ShloMosaic.Lib.Pipeline.Value
import Idealize.ShloMosaic.Lib.ValueLayout

set_option maxRecDepth 65536

noncomputable section

namespace Cert.KernelIdeal.Stretch0

open Idealize.ShloMosaic Idealize.ShloMosaic.TcCoe Idealize.SL.Sem Idealize.ShloMosaic.StableHlo Idealize.ShloMosaic.ValueIdx
open Cert.KernelIdeal Cert.KernelIdeal.Gen Cert.Net Cert.KernelIdeal.Mean

variable (W : Valuation τ sig (Elt Ideal))

/-- What the stretch leaves, from contents `W`. -/
abbrev after0 : Valuation τ sig (Elt Ideal) := StableHlo.after hostOps0 W

/-! ## Buffers the stretch leaves alone -/

theorem after0_arg0 : after0 W (Proc.devRef .tc main_arg0) = W (Proc.devRef .tc main_arg0) := by
  dsimp only [after0, hostOps0]
  after_results_simp

theorem after0_arg2 : after0 W (Proc.devRef .tc main_arg2) = W (Proc.devRef .tc main_arg2) := by
  dsimp only [after0, hostOps0]
  after_results_simp

theorem after0_arg3 : after0 W (Proc.devRef .tc main_arg3) = W (Proc.devRef .tc main_arg3) := by
  dsimp only [after0, hostOps0]
  after_results_simp

theorem after0_arg5 : after0 W (Proc.devRef .tc main_arg5) = W (Proc.devRef .tc main_arg5) := by
  dsimp only [after0, hostOps0]
  after_results_simp

theorem after0_arg10 : after0 W (Proc.devRef .tc main_arg10) = W (Proc.devRef .tc main_arg10) := by
  dsimp only [after0, hostOps0]
  after_results_simp

theorem after0_arg11 : after0 W (Proc.devRef .tc main_arg11) = W (Proc.devRef .tc main_arg11) := by
  dsimp only [after0, hostOps0]
  after_results_simp

theorem after0_arg12 : after0 W (Proc.devRef .tc main_arg12) = W (Proc.devRef .tc main_arg12) := by
  dsimp only [after0, hostOps0]
  after_results_simp

theorem after0_arg13 : after0 W (Proc.devRef .tc main_arg13) = W (Proc.devRef .tc main_arg13) := by
  dsimp only [after0, hostOps0]
  after_results_simp

theorem after0_arg14 : after0 W (Proc.devRef .tc main_arg14) = W (Proc.devRef .tc main_arg14) := by
  dsimp only [after0, hostOps0]
  after_results_simp

theorem after0_arg15 : after0 W (Proc.devRef .tc main_arg15) = W (Proc.devRef .tc main_arg15) := by
  dsimp only [after0, hostOps0]
  after_results_simp

theorem after0_arg16 : after0 W (Proc.devRef .tc main_arg16) = W (Proc.devRef .tc main_arg16) := by
  dsimp only [after0, hostOps0]
  after_results_simp

theorem after0_arg17 : after0 W (Proc.devRef .tc main_arg17) = W (Proc.devRef .tc main_arg17) := by
  dsimp only [after0, hostOps0]
  after_results_simp

/-! ## What it writes -/

theorem after0_v1 : after0 W (Proc.devRef .tc main_v1) = edgeRow0 (W (Proc.devRef .tc main_arg1)) := by
  dsimp only [after0, hostOps0]
  after_results_simp
  rfl

theorem after0_v3 : after0 W (Proc.devRef .tc main_v3) = edgeRow1 (W (Proc.devRef .tc main_arg1)) := by
  dsimp only [after0, hostOps0]
  after_results_simp
  rfl

theorem after0_v4 : (after0 W (Proc.devRef .tc main_v4) : Mat 1 64) = rowOf (W (Proc.devRef .tc main_arg4) : Vct 64) := by
  dsimp only [after0, hostOps0]
  after_results_simp
  funext i
  obtain ⟨u, k, rfl⟩ : ∃ (u : Fin 1) (k : Fin 64), i = ix2 u k := ⟨i 0, i 1, eq_ix2 i⟩
  exact shapeCast_a_1a_apply _ _ u k

theorem after0_v5 : (after0 W (Proc.devRef .tc main_v5) : Mat 1 64) = rowOf (W (Proc.devRef .tc main_arg6) : Vct 64) := by
  dsimp only [after0, hostOps0]
  after_results_simp
  funext i
  obtain ⟨u, k, rfl⟩ : ∃ (u : Fin 1) (k : Fin 64), i = ix2 u k := ⟨i 0, i 1, eq_ix2 i⟩
  exact shapeCast_a_1a_apply _ _ u k

theorem after0_v6 : (after0 W (Proc.devRef .tc main_v6) : Mat 1 128) = rowOf (W (Proc.devRef .tc main_arg8) : Vct 128) := by
  dsimp only [after0, hostOps0]
  after_results_simp
  funext i
  obtain ⟨u, k, rfl⟩ : ∃ (u : Fin 1) (k : Fin 128), i = ix2 u k := ⟨i 0, i 1, eq_ix2 i⟩
  exact shapeCast_a_1a_apply _ _ u k

theorem after0_v7 : (after0 W (Proc.devRef .tc main_v7) : Mat 1 128) = rowOf (W (Proc.devRef .tc main_arg9) : Vct 128) := by
  dsimp only [after0, hostOps0]
  after_results_simp
  funext i
  obtain ⟨u, k, rfl⟩ : ∃ (u : Fin 1) (k : Fin 128), i = ix2 u k := ⟨i 0, i 1, eq_ix2 i⟩
  exact shapeCast_a_1a_apply _ _ u k

theorem after0_v8 : (after0 W (Proc.devRef .tc main_v8) : Mat 64 128) = topHalf (W (Proc.devRef .tc main_arg7) : Mat 128 128) := by
  dsimp only [after0, hostOps0]
  after_results_simp
  funext i
  unfold topHalf
  exact extractStridedSlice_apply (s := S128x128) (t := S64x128) ![0, 0] (W (Proc.devRef .tc main_arg7)) slices_S128x128_S64x128_0_0 i _ (fun a => match a with
    | ⟨0, _⟩ => by show (i 0).val = 0 + (i 0).val; omega
    | ⟨1, _⟩ => by show (i 1).val = 0 + (i 1).val; omega)

theorem after0_v9 : (after0 W (Proc.devRef .tc main_v9) : Mat 64 128) = botHalf (W (Proc.devRef .tc main_arg7) : Mat 128 128) := by
  dsimp only [after0, hostOps0]
  after_results_simp
  funext i
  unfold botHalf
  exact extractStridedSlice_apply (s := S128x128) (t := S64x128) ![64, 0] (W (Proc.devRef .tc main_arg7)) slices_S128x128_S64x128_64_0 i _ (fun a => match a with
    | ⟨0, _⟩ => by show 64 + (i 0).val = 64 + (i 0).val; rfl
    | ⟨1, _⟩ => by show (i 1).val = 0 + (i 1).val; omega)

end Cert.KernelIdeal.Stretch0

end
-- ==== Proof.KernelLevels.lean ====
/-
  The kernel program's buffers at the boundaries between its segments, traced back to the launch memory.

  At launch a buffer holds the memory's contents. The host operations ahead of the first region leave the
  arguments alone and write the edge list's two rows, the bias vectors as one-row arrays and the two halves of the
  input projection. A region changes only its own window arrays. The host operations between the first and the
  second region leave the arguments and the edge list's rows alone and write the relation matrices and the layer's
  bias as a one-row array. Each statement below is one such step followed by the previous level's.
-/
import proofs.«150732_j39487929319593_2_alg».proof.Proof.Gen.KernelIdeal.Frame
import proofs.«150732_j39487929319593_2_alg».proof.Proof.Stretch0
import proofs.«150732_j39487929319593_2_alg».proof.Proof.Stretch1

noncomputable section

namespace Cert.KernelIdeal.Levels

open Idealize.ShloMosaic Idealize.ShloMosaic.TcCoe Idealize.SL.Sem Idealize.ShloMosaic.StableHlo Idealize.ShloMosaic.ValueIdx
open Cert.KernelIdeal Cert.KernelIdeal.Gen Cert.Net Cert.KernelIdeal.Mean

variable (m : (ℓ : Loc nD τ sig) → Buf (Elt Ideal) ℓ) (ρ : Dev nD → PrngReg) (c : Dev nD)

/-! ## After the host operations ahead of the first region -/

theorem W1_arg0 : W1 m ρ c (Proc.devRef .tc main_arg0) = m ((c : Thread nD τ).loc main_arg0) :=
  Stretch0.after0_arg0 (W0 m ρ c)
theorem V1_arg0 : V1 m ρ c main_arg0 = m ((c : Thread nD τ).loc main_arg0) := W1_arg0 m ρ c
theorem W1_arg2 : W1 m ρ c (Proc.devRef .tc main_arg2) = m ((c : Thread nD τ).loc main_arg2) :=
  Stretch0.after0_arg2 (W0 m ρ c)
theorem V1_arg2 : V1 m ρ c main_arg2 = m ((c : Thread nD τ).loc main_arg2) := W1_arg2 m ρ c
theorem W1_arg3 : W1 m ρ c (Proc.devRef .tc main_arg3) = m ((c : Thread nD τ).loc main_arg3) :=
  Stretch0.after0_arg3 (W0 m ρ c)
theorem V1_arg3 : V1 m ρ c main_arg3 = m ((c : Thread nD τ).loc main_arg3) := W1_arg3 m ρ c
theorem W1_arg5 : W1 m ρ c (Proc.devRef .tc main_arg5) = m ((c : Thread nD τ).loc main_arg5) :=
  Stretch0.after0_arg5 (W0 m ρ c)
theorem V1_arg5 : V1 m ρ c main_arg5 = m ((c : Thread nD τ).loc main_arg5) := W1_arg5 m ρ c
theorem W1_arg10 : W1 m ρ c (Proc.devRef .tc main_arg10) = m ((c : Thread nD τ).loc main_arg10) :=
  Stretch0.after0_arg10 (W0 m ρ c)
theorem V1_arg10 : V1 m ρ c main_arg10 = m ((c : Thread nD τ).loc main_arg10) := W1_arg10 m ρ c
theorem W1_arg11 : W1 m ρ c (Proc.devRef .tc main_arg11) = m ((c : Thread nD τ).loc main_arg11) :=
  Stretch0.after0_arg11 (W0 m ρ c)
theorem V1_arg11 : V1 m ρ c main_arg11 = m ((c : Thread nD τ).loc main_arg11) := W1_arg11 m ρ c
theorem W1_arg12 : W1 m ρ c (Proc.devRef .tc main_arg12) = m ((c : Thread nD τ).loc main_arg12) :=
  Stretch0.after0_arg12 (W0 m ρ c)
theorem V1_arg12 : V1 m ρ c main_arg12 = m ((c : Thread nD τ).loc main_arg12) := W1_arg12 m ρ c
theorem W1_arg13 : W1 m ρ c (Proc.devRef .tc main_arg13) = m ((c : Thread nD τ).loc main_arg13) :=
  Stretch0.after0_arg13 (W0 m ρ c)
theorem V1_arg13 : V1 m ρ c main_arg13 = m ((c : Thread nD τ).loc main_arg13) := W1_arg13 m ρ c
theorem W1_arg14 : W1 m ρ c (Proc.devRef .tc main_arg14) = m ((c : Thread nD τ).loc main_arg14) :=
  Stretch0.after0_arg14 (W0 m ρ c)
theorem V1_arg14 : V1 m ρ c main_arg14 = m ((c : Thread nD τ).loc main_arg14) := W1_arg14 m ρ c
theorem W1_arg15 : W1 m ρ c (Proc.devRef .tc main_arg15) = m ((c : Thread nD τ).loc main_arg15) :=
  Stretch0.after0_arg15 (W0 m ρ c)
theorem V1_arg15 : V1 m ρ c main_arg15 = m ((c : Thread nD τ).loc main_arg15) := W1_arg15 m ρ c
theorem W1_arg16 : W1 m ρ c (Proc.devRef .tc main_arg16) = m ((c : Thread nD τ).loc main_arg16) :=
  Stretch0.after0_arg16 (W0 m ρ c)
theorem V1_arg16 : V1 m ρ c main_arg16 = m ((c : Thread nD τ).loc main_arg16) := W1_arg16 m ρ c
theorem W1_arg17 : W1 m ρ c (Proc.devRef .tc main_arg17) = m ((c : Thread nD τ).loc main_arg17) :=
  Stretch0.after0_arg17 (W0 m ρ c)
theorem V1_arg17 : V1 m ρ c main_arg17 = m ((c : Thread nD τ).loc main_arg17) := W1_arg17 m ρ c
theorem W1_v1 : W1 m ρ c (Proc.devRef .tc main_v1) = edgeRow0 (m ((c : Thread nD τ).loc main_arg1)) :=
  Stretch0.after0_v1 (W0 m ρ c)
theorem V1_v1 : V1 m ρ c main_v1 = edgeRow0 (m ((c : Thread nD τ).loc main_arg1)) := W1_v1 m ρ c
theorem W1_v3 : W1 m ρ c (Proc.devRef .tc main_v3) = edgeRow1 (m ((c : Thread nD τ).loc main_arg1)) :=
  Stretch0.after0_v3 (W0 m ρ c)
theorem V1_v3 : V1 m ρ c main_v3 = edgeRow1 (m ((c : Thread nD τ).loc main_arg1)) := W1_v3 m ρ c
theorem W1_v4 : (W1 m ρ c (Proc.devRef .tc main_v4) : Mat 1 64) = rowOf ((m ((c : Thread nD τ).loc main_arg4)) : Vct 64) :=
  Stretch0.after0_v4 (W0 m ρ c)
theorem V1_v4 : (V1 m ρ c main_v4 : Mat 1 64) = rowOf ((m ((c : Thread nD τ).loc main_arg4)) : Vct 64) := W1_v4 m ρ c
theorem W1_v5 : (W1 m ρ c (Proc.devRef .tc main_v5) : Mat 1 64) = rowOf ((m ((c : Thread nD τ).loc main_arg6)) : Vct 64) :=
  Stretch0.after0_v5 (W0 m ρ c)
theorem V1_v5 : (V1 m ρ c main_v5 : Mat 1 64) = rowOf ((m ((c : Thread nD τ).loc main_arg6)) : Vct 64) := W1_v5 m ρ c
theorem W1_v6 : (W1 m ρ c (Proc.devRef .tc main_v6) : Mat 1 128) = rowOf ((m ((c : Thread nD τ).loc main_arg8)) : Vct 128) :=
  Stretch0.after0_v6 (W0 m ρ c)
theorem V1_v6 : (V1 m ρ c main_v6 : Mat 1 128) = rowOf ((m ((c : Thread nD τ).loc main_arg8)) : Vct 128) := W1_v6 m ρ c
theorem W1_v7 : (W1 m ρ c (Proc.devRef .tc main_v7) : Mat 1 128) = rowOf ((m ((c : Thread nD τ).loc main_arg9)) : Vct 128) :=
  Stretch0.after0_v7 (W0 m ρ c)
theorem V1_v7 : (V1 m ρ c main_v7 : Mat 1 128) = rowOf ((m ((c : Thread nD τ).loc main_arg9)) : Vct 128) := W1_v7 m ρ c
theorem W1_v8 : (W1 m ρ c (Proc.devRef .tc main_v8) : Mat 64 128) = topHalf ((m ((c : Thread nD τ).loc main_arg7)) : Mat 128 128) :=
  Stretch0.after0_v8 (W0 m ρ c)
theorem V1_v8 : (V1 m ρ c main_v8 : Mat 64 128) = topHalf ((m ((c : Thread nD τ).loc main_arg7)) : Mat 128 128) := W1_v8 m ρ c
theorem W1_v9 : (W1 m ρ c (Proc.devRef .tc main_v9) : Mat 64 128) = botHalf ((m ((c : Thread nD τ).loc main_arg7)) : Mat 128 128) :=
  Stretch0.after0_v9 (W0 m ρ c)
theorem V1_v9 : (V1 m ρ c main_v9 : Mat 64 128) = botHalf ((m ((c : Thread nD τ).loc main_arg7)) : Mat 128 128) := W1_v9 m ρ c

/-! ## At the first region's exit: a buffer that is none of its window arrays is as it entered -/

theorem W2_arg2 : W2 m ρ c (Proc.devRef .tc main_arg2) = m ((c : Thread nD τ).loc main_arg2) :=
  (W2_of_ne m ρ c main_arg2 (by decide)).trans (W1_arg2 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W2_arg15 : W2 m ρ c (Proc.devRef .tc main_arg15) = m ((c : Thread nD τ).loc main_arg15) :=
  (W2_of_ne m ρ c main_arg15 (by decide)).trans (W1_arg15 m ρ c)
theorem W2_arg16 : W2 m ρ c (Proc.devRef .tc main_arg16) = m ((c : Thread nD τ).loc main_arg16) :=
  (W2_of_ne m ρ c main_arg16 (by decide)).trans (W1_arg16 m ρ c)
theorem W2_arg17 : W2 m ρ c (Proc.devRef .tc main_arg17) = m ((c : Thread nD τ).loc main_arg17) :=
  (W2_of_ne m ρ c main_arg17 (by decide)).trans (W1_arg17 m ρ c)
theorem W2_v1 : W2 m ρ c (Proc.devRef .tc main_v1) = edgeRow0 (m ((c : Thread nD τ).loc main_arg1)) :=
  (W2_of_ne m ρ c main_v1 (by decide)).trans (W1_v1 m ρ c)
theorem W2_v3 : W2 m ρ c (Proc.devRef .tc main_v3) = edgeRow1 (m ((c : Thread nD τ).loc main_arg1)) :=
  (W2_of_ne m ρ c main_v3 (by decide)).trans (W1_v3 m ρ c)

/-! ## After the host operations between the first and the second region -/

theorem W7_arg2 : W7 m ρ c (Proc.devRef .tc main_arg2) = m ((c : Thread nD τ).loc main_arg2) :=
  (Stretch1.after1_arg2 (W2 m ρ c)).trans (W2_arg2 m ρ c)
theorem V7_arg2 : V7 m ρ c main_arg2 = m ((c : Thread nD τ).loc main_arg2) := W7_arg2 m ρ c
theorem W7_arg13 : W7 m ρ c (Proc.devRef .tc main_arg13) = m ((c : Thread nD τ).loc main_arg13) :=
  (Stretch1.after1_arg13 (W2 m ρ c)).trans (W2_arg13 m ρ c)
theorem V7_arg13 : V7 m ρ c main_arg13 = m ((c : Thread nD τ).loc main_arg13) := W7_arg13 m ρ c
theorem W7_arg14 : W7 m ρ c (Proc.devRef .tc main_arg14) = m ((c : Thread nD τ).loc main_arg14) :=
  (Stretch1.after1_arg14 (W2 m ρ c)).trans (W2_arg14 m ρ c)
theorem V7_arg14 : V7 m ρ c main_arg14 = m ((c : Thread nD τ).loc main_arg14) := W7_arg14 m ρ c
theorem W7_arg15 : W7 m ρ c (Proc.devRef .tc main_arg15) = m ((c : Thread nD τ).loc main_arg15) :=
  (Stretch1.after1_arg15 (W2 m ρ c)).trans (W2_arg15 m ρ c)
theorem V7_arg15 : V7 m ρ c main_arg15 = m ((c : Thread nD τ).loc main_arg15) := W7_arg15 m ρ c
theorem W7_arg16 : W7 m ρ c (Proc.devRef .tc main_arg16) = m ((c : Thread nD τ).loc main_arg16) :=
  (Stretch1.after1_arg16 (W2 m ρ c)).trans (W2_arg16 m ρ c)
theorem V7_arg16 : V7 m ρ c main_arg16 = m ((c : Thread nD τ).loc main_arg16) := W7_arg16 m ρ c
theorem W7_arg17 : W7 m ρ c (Proc.devRef .tc main_arg17) = m ((c : Thread nD τ).loc main_arg17) :=
  (Stretch1.after1_arg17 (W2 m ρ c)).trans (W2_arg17 m ρ c)
theorem V7_arg17 : V7 m ρ c main_arg17 = m ((c : Thread nD τ).loc main_arg17) := W7_arg17 m ρ c
theorem W7_v1 : W7 m ρ c (Proc.devRef .tc main_v1) = edgeRow0 (m ((c : Thread nD τ).loc main_arg1)) :=
  (Stretch1.after1_v1 (W2 m ρ c)).trans (W2_v1 m ρ c)
theorem V7_v1 : V7 m ρ c main_v1 = edgeRow0 (m ((c : Thread nD τ).loc main_arg1)) := W7_v1 m ρ c
theorem W7_v3 : W7 m ρ c (Proc.devRef .tc main_v3) = edgeRow1 (m ((c : Thread nD τ).loc main_arg1)) :=
  (Stretch1.after1_v3 (W2 m ρ c)).trans (W2_v3 m ρ c)
theorem V7_v3 : V7 m ρ c main_v3 = edgeRow1 (m ((c : Thread nD τ).loc main_arg1)) := W7_v3 m ρ c
theorem W7_arg11 : W7 m ρ c (Proc.devRef .tc main_arg11) = m ((c : Thread nD τ).loc main_arg11) :=
  (Stretch1.after1_arg11 (W2 m ρ c)).trans (W2_arg11 m ρ c)
theorem V7_arg11 : V7 m ρ c main_arg11 = m ((c : Thread nD τ).loc main_arg11) := W7_arg11 m ρ c
theorem W7_v51 : (W7 m ρ c (Proc.devRef .tc main_v51) : Mat 128 128) = relMat 0 ((m ((c : Thread nD τ).loc main_arg10)) : Rel) :=
  (Stretch1.after1_v51 (W2 m ρ c)).trans (congrArg (relMat 0) (W2_arg10 m ρ c))
theorem V7_v51 : (V7 m ρ c main_v51 : Mat 128 128) = relMat 0 ((m ((c : Thread nD τ).loc main_arg10)) : Rel) := W7_v51 m ρ c
theorem W7_v53 : (W7 m ρ c (Proc.devRef .tc main_v53) : Mat 128 128) = relMat 1 ((m ((c : Thread nD τ).loc main_arg10)) : Rel) :=
  (Stretch1.after1_v53 (W2 m ρ c)).trans (congrArg (relMat 1) (W2_arg10 m ρ c))
theorem V7_v53 : (V7 m ρ c main_v53 : Mat 128 128) = relMat 1 ((m ((c : Thread nD τ).loc main_arg10)) : Rel) := W7_v53 m ρ c
theorem W7_v54 : (W7 m ρ c (Proc.devRef .tc main_v54) : Mat 1 128) = rowOf ((m ((c : Thread nD τ).loc main_arg12)) : Vct 128) :=
  (Stretch1.after1_v54 (W2 m ρ c)).trans (congrArg rowOf (W2_arg12 m ρ c))
theorem V7_v54 : (V7 m ρ c main_v54 : Mat 1 128) = rowOf ((m ((c : Thread nD τ).loc main_arg12)) : Vct 128) := W7_v54 m ρ c

/-! ## At the second region's exit -/

theorem W8_arg2 : W8 m ρ c (Proc.devRef .tc main_arg2) = m ((c : Thread nD τ).loc main_arg2) :=
  (W8_of_ne m ρ c main_arg2 (by decide)).trans (W7_arg2 m ρ c)
theorem W8_arg13 : W8 m ρ c (Proc.devRef .tc main_arg13) = m ((c : Thread nD τ).loc main_arg13) :=
  (W8_of_ne m ρ c main_arg13 (by decide)).trans (W7_arg13 m ρ c)
theorem W8_arg14 : W8 m ρ c (Proc.devRef .tc main_arg14) = m ((c : Thread nD τ).loc main_arg14) :=
  (W8_of_ne m ρ c main_arg14 (by decide)).trans (W7_arg14 m ρ c)
theorem W8_arg15 : W8 m ρ c (Proc.devRef .tc main_arg15) = m ((c : Thread nD τ).loc main_arg15) :=
  (W8_of_ne m ρ c main_arg15 (by decide)).trans (W7_arg15 m ρ c)
theorem W8_arg16 : W8 m ρ c (Proc.devRef .tc main_arg16) = m ((c : Thread nD τ).loc main_arg16) :=
  (W8_of_ne m ρ c main_arg16 (by decide)).trans (W7_arg16 m ρ c)
theorem W8_arg17 : W8 m ρ c (Proc.devRef .tc main_arg17) = m ((c : Thread nD τ).loc main_arg17) :=
  (W8_of_ne m ρ c main_arg17 (by decide)).trans (W7_arg17 m ρ c)
theorem W8_v1 : W8 m ρ c (Proc.devRef .tc main_v1) = edgeRow0 (m ((c : Thread nD τ).loc main_arg1)) :=
  (W8_of_ne m ρ c main_v1 (by decide)).trans (W7_v1 m ρ c)
theorem W8_v3 : W8 m ρ c (Proc.devRef .tc main_v3) = edgeRow1 (m ((c : Thread nD τ).loc main_arg1)) :=
  (W8_of_ne m ρ c main_v3 (by decide)).trans (W7_v3 m ρ c)

end Cert.KernelIdeal.Levels

end
-- ==== Proof.KernelNet.lean ====
/-
  The idealized kernel's result is the network of the eighteen arguments.

  The run's final memory is a fold over the program's segments. Unfolding it from the end: the third region leaves
  in the result buffer, row by row, the second layer and the classifier of its operands as it found them; those are
  what the host stretches before it computed from the second region's result (the two means, the two relation
  matrices, the bias rows) and arguments nobody wrote; the second region's result is the first layer of ITS operands;
  and so on back to the encoder and the launch memory. Each step is one of: a region's closed form, a stretch read
  at a buffer, a region exit leaving a foreign buffer alone.
-/
import proofs.«150732_j39487929319593_2_alg».proof.Proof.KernelRun
import proofs.«150732_j39487929319593_2_alg».proof.Proof.RegionEnc
import proofs.«150732_j39487929319593_2_alg».proof.Proof.RegionRgcn
import proofs.«150732_j39487929319593_2_alg».proof.Proof.RegionCls
import proofs.«150732_j39487929319593_2_alg».proof.Proof.Stretch1
import proofs.«150732_j39487929319593_2_alg».proof.Proof.Stretch2
import proofs.«150732_j39487929319593_2_alg».proof.Proof.KernelLevels
import proofs.«150732_j39487929319593_2_alg».proof.Proof.Net

set_option maxRecDepth 65536

noncomputable section

namespace Cert.KernelIdeal.NetValue

open Idealize.ShloMosaic Idealize.ShloMosaic.TcCoe Idealize.SL.Sem Idealize.ShloMosaic.StableHlo Idealize.ShloMosaic.ValueIdx
open Cert.KernelIdeal Cert.KernelIdeal.Gen Cert.KernelIdeal.Mean Cert.Net
open Cert.KernelIdeal.RegionValue Cert.KernelIdeal.Levels Cert.KernelIdeal.Stretch1 Cert.KernelIdeal.Stretch2

variable (m : (ℓ : Loc nD τ sig) → Buf (Elt Ideal) ℓ) (ρ : Dev nD → PrngReg) (c : Dev nD)

/-! ## The first region: the encoder -/

/-- The first region's result array is every node's encoded features. -/
theorem enc_value : W2 m ρ c (Proc.devRef .tc main_v10) = encNet (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W2_arr m ρ c 9).trans ((final0 (V1 m ρ) c).trans ?_)
  unfold encNet
  rw [V1_arg0 m ρ c, V1_arg3 m ρ c, V1_v4 m ρ c, V1_arg5 m ρ c, V1_v5 m ρ c, V1_v8 m ρ c, V1_v9 m ρ c, V1_v6 m ρ c, V1_v7 m ρ c]
  rfl

/-! ## The second region: the first layer -/

theorem V7_v10 : V7 m ρ c main_v10 = encNet (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (after1_v10 (W2 m ρ c)).trans (enc_value m ρ c)

theorem V7_v33 : V7 m ρ c main_v33 = meanOver 0#32 (encNet (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (edgeRow0 (m ((c : Thread nD τ).loc main_arg1))) (edgeRow1 (m ((c : Thread nD τ).loc main_arg1))) (m ((c : Thread nD τ).loc main_arg2)) := by
  refine (after1_v33 (W2 m ρ c)).trans ?_
  rw [enc_value m ρ c, W2_v1 m ρ c, W2_v3 m ρ c, W2_arg2 m ρ c]

theorem V7_v49 : V7 m ρ c main_v49 = meanOver 1#32 (encNet (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (edgeRow0 (m ((c : Thread nD τ).loc main_arg1))) (edgeRow1 (m ((c : Thread nD τ).loc main_arg1))) (m ((c : Thread nD τ).loc main_arg2)) := by
  refine (after1_v49 (W2 m ρ c)).trans ?_
  rw [enc_value m ρ c, W2_v1 m ρ c, W2_v3 m ρ c, W2_arg2 m ρ c]

/-- The second region's result array is the node features after the first layer. -/
theorem hidden1_value : W8 m ρ c (Proc.devRef .tc main_v55) = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 7).trans ((final1 (V7 m ρ) c).trans ?_)
  unfold hidden1 layerNet
  rw [V7_v10 m ρ c, V7_v33 m ρ c, V7_v49 m ρ c, V7_arg11 m ρ c, V7_v51 m ρ c, V7_v53 m ρ c, V7_v54 m ρ c]
  rfl

/-! ## The third region: the second layer and the classifier -/

theorem V13_v55 : V13 m ρ c main_v55 = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (after2_v55 (W8 m ρ c)).trans (hidden1_value m ρ c)

theorem V13_v78 : V13 m ρ c main_v78 = meanOver 0#32 (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (edgeRow0 (m ((c : Thread nD τ).loc main_arg1))) (edgeRow1 (m ((c : Thread nD τ).loc main_arg1))) (m ((c : Thread nD τ).loc main_arg2)) := by
  refine (after2_v78 (W8 m ρ c)).trans ?_
  rw [hidden1_value m ρ c, W8_v1 m ρ c, W8_v3 m ρ c, W8_arg2 m ρ c]

theorem V13_v94 : V13 m ρ c main_v94 = meanOver 1#32 (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (edgeRow0 (m ((c : Thread nD τ).loc main_arg1))) (edgeRow1 (m ((c : Thread nD τ).loc main_arg1))) (m ((c : Thread nD τ).loc main_arg2)) := by
  refine (after2_v94 (W8 m ρ c)).trans ?_
  rw [hidden1_value m ρ c, W8_v1 m ρ c, W8_v3 m ρ c, W8_arg2 m ρ c]

theorem V13_arg14 : V13 m ρ c main_arg14 = (m ((c : Thread nD τ).loc main_arg14)) :=
  (after2_arg14 (W8 m ρ c)).trans (W8_arg14 m ρ c)

theorem V13_arg16 : V13 m ρ c main_arg16 = (m ((c : Thread nD τ).loc main_arg16)) :=
  (after2_arg16 (W8 m ρ c)).trans (W8_arg16 m ρ c)

theorem V13_v96 : (V13 m ρ c main_v96 : Mat 128 128) = relMat 0 (m ((c : Thread nD τ).loc main_arg13)) := by
  refine (after2_v96 (W8 m ρ c)).trans ?_
  rw [W8_arg13 m ρ c]

theorem V13_v98 : (V13 m ρ c main_v98 : Mat 128 128) = relMat 1 (m ((c : Thread nD τ).loc main_arg13)) := by
  refine (after2_v98 (W8 m ρ c)).trans ?_
  rw [W8_arg13 m ρ c]

theorem V13_v99 : (V13 m ρ c main_v99 : Mat 1 128) = rowOf (m ((c : Thread nD τ).loc main_arg15)) := by
  refine (after2_v99 (W8 m ρ c)).trans ?_
  rw [W8_arg15 m ρ c]

theorem V13_v100 : (V13 m ρ c main_v100 : Mat 1 128) = rowOf (m ((c : Thread nD τ).loc main_arg17)) := by
  refine (after2_v100 (W8 m ρ c)).trans ?_
  rw [W8_arg17 m ρ c]

/-- The result buffer after the run holds the network of the arguments. -/
theorem net_value : W14 m ρ c (Proc.devRef .tc main_v101) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W14_arr m ρ c 9).trans ((final2 (V13 m ρ) c).trans ?_)
  unfold net clsNet
  rw [V13_v55 m ρ c, V13_v78 m ρ c, V13_v94 m ρ c, V13_arg14 m ρ c, V13_v96 m ρ c, V13_v98 m ρ c, V13_v99 m ρ c, V13_arg16 m ρ c, V13_v100 m ρ c]
  rfl

end Cert.KernelIdeal.NetValue

end
-- ==== Proof.RefStages.lean ====
/-
  The reference program's stages read at one index.

  Each theorem takes one result element (row `r`, column `j`) of a stage of the reference and writes it as the
  network's formula over the stage's operands: the classifier, the two relational graph layers (the neighbour
  means stay as arrays), the relation matrices as slabs of the stacked array, and the encoder, whose concatenated
  halves are read on either side of column 64.
-/
import proofs.«150732_j39487929319593_2_alg».proof.Proof.Gen.ReferenceIdeal.Read
import proofs.«150732_j39487929319593_2_alg».proof.Proof.Spec

noncomputable section

namespace Cert.ReferenceIdeal.RefValue

open Cert.ReferenceIdeal Cert.ReferenceIdeal.Gen Cert.ReferenceIdeal.Read Cert.Net
open Idealize.ShloMosaic Idealize.ShloMosaic.ValueIdx

/-- Rank-1 indices with the same coordinate are equal. -/
theorem ext1 {n : Nat} {f g : (⟨1, ![n]⟩ : Shape).Idx} (h0 : (f 0).val = (g 0).val) : f = g :=
  funext fun a => Fin.ext (by match a with | ⟨0, _⟩ => exact h0)

/-- Rank-2 indices with the same coordinates are equal. -/
theorem ext2 {n0 n1 : Nat} {f g : (⟨2, ![n0, n1]⟩ : Shape).Idx} (h0 : (f 0).val = (g 0).val)
    (h1 : (f 1).val = (g 1).val) : f = g :=
  funext fun a => Fin.ext (by match a with | ⟨0, _⟩ => exact h0 | ⟨1, _⟩ => exact h1)

/-- Rank-3 indices with the same coordinates are equal. -/
theorem ext3 {n0 n1 n2 : Nat} {f g : (⟨3, ![n0, n1, n2]⟩ : Shape).Idx} (h0 : (f 0).val = (g 0).val)
    (h1 : (f 1).val = (g 1).val) (h2 : (f 2).val = (g 2).val) : f = g :=
  funext fun a => Fin.ext (by match a with | ⟨0, _⟩ => exact h0 | ⟨1, _⟩ => exact h1 | ⟨2, _⟩ => exact h2)

/-- The classifier: row `r` of the second layer's output through the last linear map, plus its bias. -/
theorem ref_cls (x0 : (⟨S100000x8, .f32⟩ : BufTy).Contents (Elt Ideal)) (x1 : (⟨S2x1600000, .i32⟩ : BufTy).Contents (Elt Ideal)) (x2 : (⟨S1600000, .i32⟩ : BufTy).Contents (Elt Ideal)) (x3 : (⟨S5x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S128x128, .f32⟩ : BufTy).Contents (Elt Ideal)) (x12 : (⟨S128, .f32⟩ : BufTy).Contents (Elt Ideal)) (x13 : (⟨S2x128x128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (r : Fin 100000) (j : Fin 128) :
    val_main_v144 (F := Ideal) x0 x1 x2 x3 x4 x5 x6 x7 x8 x9 x10 x11 x12 x13 x14 x15 x16 x17 (ix2 r j)
      = (∑ k : Fin 128, val_main_v140 (F := Ideal) x0 x1 x2 x3 x4 x5 x6 x7 x8 x9 x10 x11 x12 x13 x14 x15 (ix2 r k) * x16 (ix2 k j)) + x17 (ix1 j) := by
  rw [val_main_v144_apply, val_main_v141_apply, val_main_v143_apply, val_main_v142_apply]
  have el : ∀ k : Fin 128, lidx_main_v141 (ix2 r j) k = ix2 r k := fun k => ext2 rfl rfl
  have er : ∀ k : Fin 128, ridx_main_v141 (ix2 r j) k = ix2 k j := fun k => ext2 rfl rfl
  have eb : idx_main_v142 (idx_main_v143 (ix2 r j)) = ix1 j := ext1 rfl
  simp only [el, er, eb, Ideal.addf_def]

/-- The relation-0 matrix: slab 0 of the stacked relation matrices, its unit axis dropped. -/
theorem ref_wrel_v63 (x10 : (⟨S2x128x128, .f32⟩ : BufTy).Contents (Elt Ideal)) (k j : Fin 128) :
    val_main_v63 (F := Ideal) x10 (ix2 k j) = x10 (ix3 0 k j) := by
  rw [val_main_v63_apply, val_main_v62_apply]
  have hk := k.isLt
  have hj := j.isLt
  exact congrArg x10 (ext3 rfl (by show (k.val * 128 + j.val) / 128 % 128 = k.val; omega)
    (by show (k.val * 128 + j.val) % 128 = j.val; omega))

/-- The relation-1 matrix: slab 1 of the stacked relation matrices, its unit axis dropped. -/
theorem ref_wrel_v83 (x10 : (⟨S2x128x128, .f32⟩ : BufTy).Contents (Elt Ideal)) (k j : Fin 128) :
    val_main_v83 (F := Ideal) x10 (ix2 k j) = x10 (ix3 1 k j) := by
  rw [val_main_v83_apply, val_main_v82_apply]
  have hk := k.isLt
  have hj := j.isLt
  exact congrArg x10 (ext3 rfl (by show (k.val * 128 + j.val) / 128 % 128 = k.val; omega)
    (by show (k.val * 128 + j.val) % 128 = j.val; omega))

/-- The relation-0 matrix: slab 0 of the stacked relation matrices, its unit axis dropped. -/
theorem ref_wrel_v118 (x13 : (⟨S2x128x128, .f32⟩ : BufTy).Contents (Elt Ideal)) (k j : Fin 128) :
    val_main_v118 (F := Ideal) x13 (ix2 k j) = x13 (ix3 0 k j) := by
  rw [val_main_v118_apply, val_main_v117_apply]
  have hk := k.isLt
  have hj := j.isLt
  exact congrArg x13 (ext3 rfl (by show (k.val * 128 + j.val) / 128 % 128 = k.val; omega)
    (by show (k.val * 128 + j.val) % 128 = j.val; omega))

/-- The relation-1 matrix: slab 1 of the stacked relation matrices, its unit axis dropped. -/
theorem ref_wrel_v138 (x13 : (⟨S2x128x128, .f32⟩ : BufTy).Contents (Elt Ideal)) (k j : Fin 128) :
    val_main_v138 (F := Ideal) x13 (ix2 k j) = x13 (ix3 1 k j) := by
  rw [val_main_v138_apply, val_main_v137_apply]
  have hk := k.isLt
  have hj := j.isLt
  exact congrArg x13 (ext3 rfl (by show (k.val * 128 + j.val) / 128 % 128 = k.val; omega)
    (by show (k.val * 128 + j.val) % 128 = j.val; omega))

/-- A relational graph layer at row `r`, column `j`: the root map, then the bias, then the two relations' terms. -/
theorem ref_layer1 (x0 : (⟨S100000x8, .f32⟩ : BufTy).Contents (Elt Ideal)) (x1 : (⟨S2x1600000, .i32⟩ : BufTy).Contents (Elt Ideal)) (x2 : (⟨S1600000, .i32⟩ : BufTy).Contents (Elt Ideal)) (x3 : (⟨S5x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S128x128, .f32⟩ : BufTy).Contents (Elt Ideal)) (x12 : (⟨S128, .f32⟩ : BufTy).Contents (Elt Ideal)) (r : Fin 100000) (j : Fin 128) :
    val_main_v85 (F := Ideal) x0 x1 x2 x3 x4 x5 x6 x7 x8 x9 x10 x11 x12 (ix2 r j)
      = rgcnRowBiasFirst (val_main_v30 (F := Ideal) x0 x3 x4 x5 x6 x7 x8 x9) (val_main_v61 (F := Ideal) x0 x1 x2 x3 x4 x5 x6 x7 x8 x9) (val_main_v81 (F := Ideal) x0 x1 x2 x3 x4 x5 x6 x7 x8 x9)
          x11 (val_main_v63 (F := Ideal) x10) (val_main_v83 (F := Ideal) x10) (fun q => x12 (ix1 q)) r j := by
  rw [val_main_v85_apply, val_main_v65_apply, val_main_v45_apply, val_main_v84_apply, val_main_v64_apply,
    val_main_v42_apply, val_main_v44_apply, val_main_v43_apply]
  have el : ∀ k : Fin 128, lidx_main_v42 (ix2 r j) k = ix2 r k := fun k => ext2 rfl rfl
  have er : ∀ k : Fin 128, ridx_main_v42 (ix2 r j) k = ix2 k j := fun k => ext2 rfl rfl
  have el0 : ∀ k : Fin 128, lidx_main_v64 (ix2 r j) k = ix2 r k := fun k => ext2 rfl rfl
  have er0 : ∀ k : Fin 128, ridx_main_v64 (ix2 r j) k = ix2 k j := fun k => ext2 rfl rfl
  have el1 : ∀ k : Fin 128, lidx_main_v84 (ix2 r j) k = ix2 r k := fun k => ext2 rfl rfl
  have er1 : ∀ k : Fin 128, ridx_main_v84 (ix2 r j) k = ix2 k j := fun k => ext2 rfl rfl
  have eb : idx_main_v43 (idx_main_v44 (ix2 r j)) = ix1 j := ext1 rfl
  simp only [el, er, el0, er0, el1, er1, eb, Ideal.addf_def]
  rfl

/-- A relational graph layer at row `r`, column `j`: the root map, then the bias, then the two relations' terms. -/
theorem ref_layer2 (x0 : (⟨S100000x8, .f32⟩ : BufTy).Contents (Elt Ideal)) (x1 : (⟨S2x1600000, .i32⟩ : BufTy).Contents (Elt Ideal)) (x2 : (⟨S1600000, .i32⟩ : BufTy).Contents (Elt Ideal)) (x3 : (⟨S5x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S128x128, .f32⟩ : BufTy).Contents (Elt Ideal)) (x12 : (⟨S128, .f32⟩ : BufTy).Contents (Elt Ideal)) (x13 : (⟨S2x128x128, .f32⟩ : BufTy).Contents (Elt Ideal)) (x14 : (⟨S128x128, .f32⟩ : BufTy).Contents (Elt Ideal)) (x15 : (⟨S128, .f32⟩ : BufTy).Contents (Elt Ideal)) (r : Fin 100000) (j : Fin 128) :
    val_main_v140 (F := Ideal) x0 x1 x2 x3 x4 x5 x6 x7 x8 x9 x10 x11 x12 x13 x14 x15 (ix2 r j)
      = rgcnRowBiasFirst (val_main_v85 (F := Ideal) x0 x1 x2 x3 x4 x5 x6 x7 x8 x9 x10 x11 x12) (val_main_v116 (F := Ideal) x0 x1 x2 x3 x4 x5 x6 x7 x8 x9 x10 x11 x12) (val_main_v136 (F := Ideal) x0 x1 x2 x3 x4 x5 x6 x7 x8 x9 x10 x11 x12)
          x14 (val_main_v118 (F := Ideal) x13) (val_main_v138 (F := Ideal) x13) (fun q => x15 (ix1 q)) r j := by
  rw [val_main_v140_apply, val_main_v120_apply, val_main_v100_apply, val_main_v139_apply, val_main_v119_apply,
    val_main_v97_apply, val_main_v99_apply, val_main_v98_apply]
  have el : ∀ k : Fin 128, lidx_main_v97 (ix2 r j) k = ix2 r k := fun k => ext2 rfl rfl
  have er : ∀ k : Fin 128, ridx_main_v97 (ix2 r j) k = ix2 k j := fun k => ext2 rfl rfl
  have el0 : ∀ k : Fin 128, lidx_main_v119 (ix2 r j) k = ix2 r k := fun k => ext2 rfl rfl
  have er0 : ∀ k : Fin 128, ridx_main_v119 (ix2 r j) k = ix2 k j := fun k => ext2 rfl rfl
  have el1 : ∀ k : Fin 128, lidx_main_v139 (ix2 r j) k = ix2 r k := fun k => ext2 rfl rfl
  have er1 : ∀ k : Fin 128, ridx_main_v139 (ix2 r j) k = ix2 k j := fun k => ext2 rfl rfl
  have eb : idx_main_v98 (idx_main_v99 (ix2 r j)) = ix1 j := ext1 rfl
  simp only [el, er, el0, er0, el1, er1, eb, Ideal.addf_def]
  rfl

/-- The num half of the encoder at row `r`, feature `k`. -/
theorem ref_num (x0 : (⟨S100000x8, .f32⟩ : BufTy).Contents (Elt Ideal)) (x3 : (⟨S5x64, .f32⟩ : BufTy).Contents (Elt Ideal)) (x4 : (⟨S64, .f32⟩ : BufTy).Contents (Elt Ideal)) (r : Fin 100000) (k : Fin 64) :
    val_main_v10 (F := Ideal) x0 x3 x4 (ix2 r k) = numRow x0 x3 (fun i => x4 (ix1 (i 1))) r k := by
  rw [val_main_v10_apply, val_main_v7_apply, val_main_v9_apply, val_main_v5_apply, val_main_v2_apply,
    val_main_v4_apply, val_main_v3_apply, val_main_v6_apply, val_main_cst_apply, val_main_v8_apply, val_main_cst_0_apply]
  have e0 : ∀ q : Fin 5, idx_main_v0 (lidx_main_v2 (ix2 r k) q) = ix2 r ⟨q.val, by omega⟩ :=
    fun q => ext2 rfl rfl
  have er : ∀ q : Fin 5, ridx_main_v2 (ix2 r k) q = ix2 q k := fun q => ext2 rfl rfl
  have eb : idx_main_v3 (idx_main_v4 (ix2 r k)) = ix1 k := ext1 rfl
  simp only [val_main_v0_apply, e0, er, eb, Ideal.addf_def, Ideal.mulf_def, Ideal.ofBits_def]
  rfl

/-- The cat half of the encoder at row `r`, feature `k`. -/
theorem ref_cat (x0 : (⟨S100000x8, .f32⟩ : BufTy).Contents (Elt Ideal)) (x5 : (⟨S3x64, .f32⟩ : BufTy).Contents (Elt Ideal)) (x6 : (⟨S64, .f32⟩ : BufTy).Contents (Elt Ideal)) (r : Fin 100000) (k : Fin 64) :
    val_main_v19 (F := Ideal) x0 x5 x6 (ix2 r k) = catRow x0 x5 (fun i => x6 (ix1 (i 1))) r k := by
  rw [val_main_v19_apply, val_main_v16_apply, val_main_v18_apply, val_main_v14_apply, val_main_v11_apply,
    val_main_v13_apply, val_main_v12_apply, val_main_v15_apply, val_main_cst_1_apply, val_main_v17_apply, val_main_cst_2_apply]
  have e0 : ∀ q : Fin 3, idx_main_v1 (lidx_main_v11 (ix2 r k) q) = ix2 r ⟨5 + q.val, by omega⟩ :=
    fun q => ext2 rfl rfl
  have er : ∀ q : Fin 3, ridx_main_v11 (ix2 r k) q = ix2 q k := fun q => ext2 rfl rfl
  have eb : idx_main_v12 (idx_main_v13 (ix2 r k)) = ix1 k := ext1 rfl
  simp only [val_main_v1_apply, e0, er, eb, Ideal.addf_def, Ideal.mulf_def, Ideal.ofBits_def]
  rfl

/-- The 128 encoded features of row `r`: the concatenation reads the numeric half below column 64 and the
    categorical half from column 64 on. -/
theorem ref_side (x0 : (⟨S100000x8, .f32⟩ : BufTy).Contents (Elt Ideal)) (x3 : (⟨S5x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (r : Fin 100000) (k : Fin 128) :
    val_main_v20 (F := Ideal) x0 x3 x4 x5 x6 (ix2 r k)
      = sideBySide (fun k => numRow x0 x3 (fun i => x4 (ix1 (i 1))) r k) (fun k => catRow x0 x5 (fun i => x6 (ix1 (i 1))) r k) k := by
  unfold val_main_v20 sideBySide
  by_cases h : k.val < 64
  · rw [dif_pos h]
    refine (concatenate_pair_apply_left (t := S100000x128) (s₁ := S100000x64) (s₂ := S100000x64) (1 : Fin 2) _ _
      concatenates_S100000x64_S100000x64_S100000x128_d1 (ix2 r k) rfl
      (ix2 r (⟨k.val, h⟩ : Fin 64)) (fun b => by match b with | ⟨0, _⟩ => rfl | ⟨1, _⟩ => rfl)).trans ?_
    exact ref_num x0 x3 x4 r ⟨k.val, h⟩
  · rw [dif_neg h]
    have h2 : k.val - 64 < 64 := by have := k.isLt; omega
    refine (concatenate_pair_apply_right (t := S100000x128) (s₁ := S100000x64) (s₂ := S100000x64) (1 : Fin 2) _ _
      concatenates_S100000x64_S100000x64_S100000x128_d1 (ix2 r k) rfl rfl
      (ix2 r (⟨k.val - 64, h2⟩ : Fin 64))
      (fun b hb => by match b, hb with | ⟨0, _⟩, _ => rfl | ⟨1, _⟩, hb => exact absurd rfl hb)
      (by show k.val - 64 + 64 = k.val; omega)).trans ?_
    exact ref_cat x0 x5 x6 r ⟨k.val - 64, h2⟩

/-- The encoder at row `r`, column `j`: the 128 features side by side through the projection, plus the bias,
    through the parametric rectifier. -/
theorem ref_enc (x0 : (⟨S100000x8, .f32⟩ : BufTy).Contents (Elt Ideal)) (x3 : (⟨S5x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (r : Fin 100000) (j : Fin 128) :
    val_main_v30 (F := Ideal) x0 x3 x4 x5 x6 x7 x8 x9 (ix2 r j)
      = act (x9 (ix1 j))
          ((∑ k : Fin 128, sideBySide (fun k => numRow x0 x3 (fun i => x4 (ix1 (i 1))) r k) (fun k => catRow x0 x5 (fun i => x6 (ix1 (i 1))) r k) k * x7 (ix2 k j)) + x8 (ix1 j)) := by
  rw [val_main_v30_apply, val_main_v26_apply, val_main_v29_apply, val_main_v24_apply, val_main_v21_apply, val_main_v23_apply,
    val_main_v22_apply, val_main_v25_apply, val_main_cst_3_apply, val_main_v28_apply, val_main_v27_apply]
  have el : ∀ k : Fin 128, lidx_main_v21 (ix2 r j) k = ix2 r k := fun k => ext2 rfl rfl
  have er : ∀ k : Fin 128, ridx_main_v21 (ix2 r j) k = ix2 k j := fun k => ext2 rfl rfl
  have eb : idx_main_v22 (idx_main_v23 (ix2 r j)) = ix1 j := ext1 rfl
  have ea : idx_main_v27 (idx_main_v28 (ix2 r j)) = ix1 j := ext1 rfl
  simp only [el, er, eb, ea, ref_side, Ideal.addf_def, Ideal.mulf_def, Ideal.ofBits_def]
  rfl

end Cert.ReferenceIdeal.RefValue

end
-- ==== Proof.RefNet.lean ====
/-
  The reference program computes the network.

  The reference's per-relation neighbour means are the same host operations as `meanOver`, applied to the same
  node features and edge list; with the stages read at an index this makes the encoder, the two relational graph
  layers and the classifier of the reference the network's, every row at once.
-/
import proofs.«150732_j39487929319593_2_alg».proof.Proof.RefStages
import proofs.«150732_j39487929319593_2_alg».proof.Proof.Net

noncomputable section

namespace Cert.ReferenceIdeal.RefValue

open Cert.ReferenceIdeal Cert.ReferenceIdeal.Gen Cert.ReferenceIdeal.Read Cert.Net
open Idealize.ShloMosaic Idealize.ShloMosaic.ValueIdx
open Cert.KernelIdeal.Mean

set_option maxHeartbeats 400000 in
/-- The reference's host operations for one relation's mean, over any node features, endpoints and edge types:
    the same operations, in the same order, as `meanOver`. -/
theorem mean_tree (rel : BitVec 32) (H : FVec Ideal S100000x128 .f32) (src dst et : IVec S1600000 32) :
    Host.divf (F := Ideal)
      (Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 dst)
        (mulf
          (Host.gather gather_S100000x128_S1600000x1_S1600000x128_1_0_n_n_0_1_1128 H
            (broadcastInDim S1600000x1 ![0] bcast_S1600000_S1600000x1_0
              (select
                (cmpi .slt src (broadcastInDim S1600000 ![] bcast_S_S1600000 (constantI S_ 32 0#32)))
                (addi src (broadcastInDim S1600000 ![] bcast_S_S1600000 (constantI S_ 32 100000#32)))
                src)))
          (broadcastInDim S1600000x128 ![0, 1] bcast_S1600000x1_S1600000x128_0_1
            (broadcastInDim S1600000x1 ![0] bcast_S1600000_S1600000x1_0
              (uitofp (F := Ideal) .f32 (cmpi .eq et (broadcastInDim S1600000 ![] bcast_S_S1600000 (constantI S_ 32 rel))))))))
      (broadcastInDim S100000x128 ![0, 1] bcast_S100000x1_S100000x128_0_1
        (broadcastInDim S100000x1 ![0] bcast_S100000_S100000x1_0
          (maximumf
            (broadcastInDim S100000 ![] bcast_S_S100000 (constant (F := Ideal) S_ .f32 0x3F800000#32))
            (Host.scatterAdd (F := Ideal) scatter_S100000_S1600000x1_S1600000_n_0_0_1
              (broadcastInDim S100000 ![] bcast_S_S100000 (constant (F := Ideal) S_ .f32 0x00000000#32))
              (broadcastInDim S1600000x1 ![0] bcast_S1600000_S1600000x1_0 dst)
              (uitofp (F := Ideal) .f32 (cmpi .eq et (broadcastInDim S1600000 ![] bcast_S_S1600000 (constantI S_ 32 rel))))))))
      = meanOver rel H src dst et := rfl

set_option maxHeartbeats 400000 in
/-- Relation 0's neighbour mean in the reference is `meanOver` of the same node features and edge list. -/
theorem ref_mean_v61 (x0 : (⟨S100000x8, .f32⟩ : BufTy).Contents (Elt Ideal)) (x1 : (⟨S2x1600000, .i32⟩ : BufTy).Contents (Elt Ideal)) (x2 : (⟨S1600000, .i32⟩ : BufTy).Contents (Elt Ideal)) (x3 : (⟨S5x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) :
    val_main_v61 (F := Ideal) x0 x1 x2 x3 x4 x5 x6 x7 x8 x9
      = meanOver 0#32 (val_main_v30 (F := Ideal) x0 x3 x4 x5 x6 x7 x8 x9) (edgeRow0 x1) (edgeRow1 x1) x2 := by
  unfold val_main_v61 val_main_v54 val_main_v52 val_main_cst_6 val_main_v53 val_main_v34 val_main_v33 val_main_v51 val_main_v41 val_main_v40 val_main_v39 val_main_v36 val_main_v32 val_main_v31 val_main_v35 val_main_c val_main_v38 val_main_v37 val_main_c_4 val_main_v50 val_main_v49 val_main_v48 val_main_v47 val_main_v46 val_main_c_5 val_main_v60 val_main_v59 val_main_v58 val_main_call3_v1 val_main_call3_v0 val_main_cst_8 val_main_v57 val_main_v55 val_main_cst_7 val_main_v56
  simp only [id_eq]
  exact mean_tree 0#32 _ _ _ _

set_option maxHeartbeats 400000 in
/-- Relation 1's neighbour mean in the reference is `meanOver` of the same node features and edge list. -/
theorem ref_mean_v81 (x0 : (⟨S100000x8, .f32⟩ : BufTy).Contents (Elt Ideal)) (x1 : (⟨S2x1600000, .i32⟩ : BufTy).Contents (Elt Ideal)) (x2 : (⟨S1600000, .i32⟩ : BufTy).Contents (Elt Ideal)) (x3 : (⟨S5x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) :
    val_main_v81 (F := Ideal) x0 x1 x2 x3 x4 x5 x6 x7 x8 x9
      = meanOver 1#32 (val_main_v30 (F := Ideal) x0 x3 x4 x5 x6 x7 x8 x9) (edgeRow0 x1) (edgeRow1 x1) x2 := by
  unfold val_main_v81 val_main_v74 val_main_v72 val_main_cst_10 val_main_v73 val_main_v34 val_main_v33 val_main_v71 val_main_v41 val_main_v40 val_main_v39 val_main_v36 val_main_v32 val_main_v31 val_main_v35 val_main_c val_main_v38 val_main_v37 val_main_c_4 val_main_v70 val_main_v69 val_main_v68 val_main_v67 val_main_v66 val_main_c_9 val_main_v80 val_main_v79 val_main_v78 val_main_call4_v1 val_main_call4_v0 val_main_cst_12 val_main_v77 val_main_v75 val_main_cst_11 val_main_v76
  simp only [id_eq]
  exact mean_tree 1#32 _ _ _ _

set_option maxHeartbeats 400000 in
/-- Relation 0's neighbour mean in the reference is `meanOver` of the same node features and edge list. -/
theorem ref_mean_v116 (x0 : (⟨S100000x8, .f32⟩ : BufTy).Contents (Elt Ideal)) (x1 : (⟨S2x1600000, .i32⟩ : BufTy).Contents (Elt Ideal)) (x2 : (⟨S1600000, .i32⟩ : BufTy).Contents (Elt Ideal)) (x3 : (⟨S5x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S128x128, .f32⟩ : BufTy).Contents (Elt Ideal)) (x12 : (⟨S128, .f32⟩ : BufTy).Contents (Elt Ideal)) :
    val_main_v116 (F := Ideal) x0 x1 x2 x3 x4 x5 x6 x7 x8 x9 x10 x11 x12
      = meanOver 0#32 (val_main_v85 (F := Ideal) x0 x1 x2 x3 x4 x5 x6 x7 x8 x9 x10 x11 x12) (edgeRow0 x1) (edgeRow1 x1) x2 := by
  unfold val_main_v116 val_main_v109 val_main_v107 val_main_cst_16 val_main_v108 val_main_v89 val_main_v88 val_main_v106 val_main_v96 val_main_v95 val_main_v94 val_main_v91 val_main_v87 val_main_v86 val_main_v90 val_main_c_13 val_main_v93 val_main_v92 val_main_c_14 val_main_v105 val_main_v104 val_main_v103 val_main_v102 val_main_v101 val_main_c_15 val_main_v115 val_main_v114 val_main_v113 val_main_call5_v1 val_main_call5_v0 val_main_cst_18 val_main_v112 val_main_v110 val_main_cst_17 val_main_v111
  simp only [id_eq]
  exact mean_tree 0#32 _ _ _ _

set_option maxHeartbeats 400000 in
/-- Relation 1's neighbour mean in the reference is `meanOver` of the same node features and edge list. -/
theorem ref_mean_v136 (x0 : (⟨S100000x8, .f32⟩ : BufTy).Contents (Elt Ideal)) (x1 : (⟨S2x1600000, .i32⟩ : BufTy).Contents (Elt Ideal)) (x2 : (⟨S1600000, .i32⟩ : BufTy).Contents (Elt Ideal)) (x3 : (⟨S5x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S128x128, .f32⟩ : BufTy).Contents (Elt Ideal)) (x12 : (⟨S128, .f32⟩ : BufTy).Contents (Elt Ideal)) :
    val_main_v136 (F := Ideal) x0 x1 x2 x3 x4 x5 x6 x7 x8 x9 x10 x11 x12
      = meanOver 1#32 (val_main_v85 (F := Ideal) x0 x1 x2 x3 x4 x5 x6 x7 x8 x9 x10 x11 x12) (edgeRow0 x1) (edgeRow1 x1) x2 := by
  unfold val_main_v136 val_main_v129 val_main_v127 val_main_cst_20 val_main_v128 val_main_v89 val_main_v88 val_main_v126 val_main_v96 val_main_v95 val_main_v94 val_main_v91 val_main_v87 val_main_v86 val_main_v90 val_main_c_13 val_main_v93 val_main_v92 val_main_c_14 val_main_v125 val_main_v124 val_main_v123 val_main_v122 val_main_v121 val_main_c_19 val_main_v135 val_main_v134 val_main_v133 val_main_call6_v1 val_main_call6_v0 val_main_cst_22 val_main_v132 val_main_v130 val_main_cst_21 val_main_v131
  simp only [id_eq]
  exact mean_tree 1#32 _ _ _ _

/-- Relation 0's matrix as an array. -/
theorem ref_relMat_v63 (x10 : (⟨S2x128x128, .f32⟩ : BufTy).Contents (Elt Ideal)) : val_main_v63 (F := Ideal) x10 = relMat 0 x10 := by
  funext i
  obtain ⟨k, j, rfl⟩ : ∃ k j, i = ix2 k j := ⟨i 0, i 1, eq_ix2 i⟩
  exact ref_wrel_v63 x10 k j

/-- Relation 1's matrix as an array. -/
theorem ref_relMat_v83 (x10 : (⟨S2x128x128, .f32⟩ : BufTy).Contents (Elt Ideal)) : val_main_v83 (F := Ideal) x10 = relMat 1 x10 := by
  funext i
  obtain ⟨k, j, rfl⟩ : ∃ k j, i = ix2 k j := ⟨i 0, i 1, eq_ix2 i⟩
  exact ref_wrel_v83 x10 k j

/-- Relation 0's matrix as an array. -/
theorem ref_relMat_v118 (x13 : (⟨S2x128x128, .f32⟩ : BufTy).Contents (Elt Ideal)) : val_main_v118 (F := Ideal) x13 = relMat 0 x13 := by
  funext i
  obtain ⟨k, j, rfl⟩ : ∃ k j, i = ix2 k j := ⟨i 0, i 1, eq_ix2 i⟩
  exact ref_wrel_v118 x13 k j

/-- Relation 1's matrix as an array. -/
theorem ref_relMat_v138 (x13 : (⟨S2x128x128, .f32⟩ : BufTy).Contents (Elt Ideal)) : val_main_v138 (F := Ideal) x13 = relMat 1 x13 := by
  funext i
  obtain ⟨k, j, rfl⟩ : ∃ k j, i = ix2 k j := ⟨i 0, i 1, eq_ix2 i⟩
  exact ref_wrel_v138 x13 k j

/-- The reference's encoder is the network's, every row at once. -/
theorem ref_enc_net (x0 : (⟨S100000x8, .f32⟩ : BufTy).Contents (Elt Ideal)) (x3 : (⟨S5x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) :
    val_main_v30 (F := Ideal) x0 x3 x4 x5 x6 x7 x8 x9 = encNet x0 x3 x4 x5 x6 x7 x8 x9 := by
  funext i
  obtain ⟨r, j, rfl⟩ : ∃ r j, i = ix2 r j := ⟨i 0, i 1, eq_ix2 i⟩
  rw [ref_enc, sum_sideBySide (fun k => numRow x0 x3 (fun i => x4 (ix1 (i 1))) r k) (fun k => catRow x0 x5 (fun i => x6 (ix1 (i 1))) r k) (fun k => x7 (ix2 k j))]
  rfl

/-- The reference's first layer is the network's. -/
theorem ref_hidden1 (x0 : (⟨S100000x8, .f32⟩ : BufTy).Contents (Elt Ideal)) (x1 : (⟨S2x1600000, .i32⟩ : BufTy).Contents (Elt Ideal)) (x2 : (⟨S1600000, .i32⟩ : BufTy).Contents (Elt Ideal)) (x3 : (⟨S5x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S128x128, .f32⟩ : BufTy).Contents (Elt Ideal)) (x12 : (⟨S128, .f32⟩ : BufTy).Contents (Elt Ideal)) :
    val_main_v85 (F := Ideal) x0 x1 x2 x3 x4 x5 x6 x7 x8 x9 x10 x11 x12 = hidden1 x0 x1 x2 x3 x4 x5 x6 x7 x8 x9 x10 x11 x12 := by
  funext i
  obtain ⟨r, j, rfl⟩ : ∃ r j, i = ix2 r j := ⟨i 0, i 1, eq_ix2 i⟩
  rw [ref_layer1, ref_mean_v61, ref_mean_v81, ref_enc_net, ref_relMat_v63, ref_relMat_v83]
  exact rgcnRowBiasFirst_eq _ _ _ x11 (relMat 0 x10) (relMat 1 x10) (rowOf x12) r j

/-- The reference's second layer is the network's second layer over the first layer's output. -/
theorem ref_hidden2 (x0 : (⟨S100000x8, .f32⟩ : BufTy).Contents (Elt Ideal)) (x1 : (⟨S2x1600000, .i32⟩ : BufTy).Contents (Elt Ideal)) (x2 : (⟨S1600000, .i32⟩ : BufTy).Contents (Elt Ideal)) (x3 : (⟨S5x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S128x128, .f32⟩ : BufTy).Contents (Elt Ideal)) (x12 : (⟨S128, .f32⟩ : BufTy).Contents (Elt Ideal)) (x13 : (⟨S2x128x128, .f32⟩ : BufTy).Contents (Elt Ideal)) (x14 : (⟨S128x128, .f32⟩ : BufTy).Contents (Elt Ideal)) (x15 : (⟨S128, .f32⟩ : BufTy).Contents (Elt Ideal)) :
    val_main_v140 (F := Ideal) x0 x1 x2 x3 x4 x5 x6 x7 x8 x9 x10 x11 x12 x13 x14 x15
      = layerNet (hidden1 x0 x1 x2 x3 x4 x5 x6 x7 x8 x9 x10 x11 x12)
          (meanOver 0#32 (hidden1 x0 x1 x2 x3 x4 x5 x6 x7 x8 x9 x10 x11 x12) (edgeRow0 x1) (edgeRow1 x1) x2)
          (meanOver 1#32 (hidden1 x0 x1 x2 x3 x4 x5 x6 x7 x8 x9 x10 x11 x12) (edgeRow0 x1) (edgeRow1 x1) x2)
          x14 x13 x15 := by
  funext i
  obtain ⟨r, j, rfl⟩ : ∃ r j, i = ix2 r j := ⟨i 0, i 1, eq_ix2 i⟩
  rw [ref_layer2, ref_mean_v116, ref_mean_v136, ref_hidden1, ref_relMat_v118, ref_relMat_v138]
  exact rgcnRowBiasFirst_eq _ _ _ x14 (relMat 0 x13) (relMat 1 x13) (rowOf x15) r j

/-- The reference computes the network. -/
theorem ref_net (x0 : (⟨S100000x8, .f32⟩ : BufTy).Contents (Elt Ideal)) (x1 : (⟨S2x1600000, .i32⟩ : BufTy).Contents (Elt Ideal)) (x2 : (⟨S1600000, .i32⟩ : BufTy).Contents (Elt Ideal)) (x3 : (⟨S5x64, .f32⟩ : BufTy).Contents (Elt Ideal)) (x4 : (⟨S64, .f32⟩ : BufTy).Contents (Elt Ideal)) (x5 : (⟨S3x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S128x128, .f32⟩ : BufTy).Contents (Elt Ideal)) (x12 : (⟨S128, .f32⟩ : BufTy).Contents (Elt Ideal)) (x13 : (⟨S2x128x128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) :
    val_main_v144 (F := Ideal) x0 x1 x2 x3 x4 x5 x6 x7 x8 x9 x10 x11 x12 x13 x14 x15 x16 x17 = net x0 x1 x2 x3 x4 x5 x6 x7 x8 x9 x10 x11 x12 x13 x14 x15 x16 x17 := by
  funext i
  obtain ⟨r, j, rfl⟩ : ∃ r j, i = ix2 r j := ⟨i 0, i 1, eq_ix2 i⟩
  rw [ref_cls, ref_hidden2]
  rfl

end Cert.ReferenceIdeal.RefValue

end
-- ==== Proof.lean ====
/-
  Two programs, one network: the certificate's five claims.

  The kernel program runs a graph network as three kernels (an encoder; a relational graph layer; a second layer
  fused with a classifier) with the edge-indexed neighbour means computed by host code in between; the reference
  runs the same network as one line of host operations. At the ideal instance — floats are extended reals, every
  operation exact, a change of float format the identity — both end with the SAME function of the eighteen
  arguments, `Cert.Net.net`:

  * each kernel's matrix products into a zero accumulator are plain sums over the shared axis, so a region's result
    is, row by row, the row function of the specification applied to its operands, whatever the tiling into fifty
    blocks of two thousand rows;
  * the kernel projects the two 64-feature halves of the encoder separately and adds, the reference concatenates
    them and projects once: a sum over 128 = 64 + 64 terms is the sum of the two halves' sums;
  * the kernel adds a layer's bias after the two relations' terms, the reference before them: addition on the
    extended reals is commutative and associative, and nothing has to be finite for that, so the precondition is
    never opened;
  * the neighbour means are the same host operations in both programs, and equal node features give equal means.

  The three frame claims are the generated frame certificates (for the reference: its generated run with the result
  dropped). Nothing was rewritten by the ideal pass, so the idealization claim is trivial.
-/
import proofs.«150732_j39487929319593_2_alg».proof.Defs
import proofs.«150732_j39487929319593_2_alg».proof.Proof.Gen.Kernel
import proofs.«150732_j39487929319593_2_alg».proof.Proof.Gen.Kernel.Skeleton
import proofs.«150732_j39487929319593_2_alg».proof.Proof.Gen.Kernel.Launch
import proofs.«150732_j39487929319593_2_alg».proof.Proof.Gen.Kernel.Points
import proofs.«150732_j39487929319593_2_alg».proof.Proof.Gen.Kernel.Frame
import proofs.«150732_j39487929319593_2_alg».proof.Proof.Gen.KernelIdeal
import proofs.«150732_j39487929319593_2_alg».proof.Proof.Gen.KernelIdeal.Skeleton
import proofs.«150732_j39487929319593_2_alg».proof.Proof.Gen.KernelIdeal.Launch
import proofs.«150732_j39487929319593_2_alg».proof.Proof.Gen.KernelIdeal.Points
import proofs.«150732_j39487929319593_2_alg».proof.Proof.Gen.KernelIdeal.Frame
import proofs.«150732_j39487929319593_2_alg».proof.Proof.Gen.ReferenceIdeal
import proofs.«150732_j39487929319593_2_alg».proof.Proof.Gen.ReferenceIdeal.Run
import proofs.«150732_j39487929319593_2_alg».proof.Proof.Gen.ReferenceIdeal.Read
import proofs.«150732_j39487929319593_2_alg».proof.Proof.Gen.Pre_finite_inputs
import proofs.«150732_j39487929319593_2_alg».proof.Proof.KernelNet
import proofs.«150732_j39487929319593_2_alg».proof.Proof.RefNet
import Idealize.ShloMosaic.Adequacy
import Idealize.ShloMosaic.Init

noncomputable section

namespace Cert.Proof

open Idealize.ShloMosaic Idealize.SL.Sem

namespace Claims

/-- The word-level kernel runs, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, both idealized programs end with the network of the arguments in
    their result buffer, and with the arguments as launched. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.NetValue.net_value m ρ c), (h c).2⟩)
      (Cert.KernelIdeal.RunValue.value_run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17⟩ := hagree c
    rw [Cert.ReferenceIdeal.Read.val_main_v144_eq, e0, e1, e2, e3, e4, e5, e6, e7, e8, e9, e10, e11, e12, e13, e14, e15, e16, e17]
    exact Cert.ReferenceIdeal.RefValue.ref_net _ _ _ _ _ _ _ _ _ _ _ _ _ _ _ _ _ _

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
